-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S256x64 : Shape := ⟨2, ![256, 64]⟩
abbrev S64 : Shape := ⟨1, ![64]⟩
abbrev S64x1 : Shape := ⟨2, ![64, 1]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  main_v18

def fn {F : FTy → Type} [FloatOps F] (main_arg0 : FVec F S64x4096x256 .f32) (main_arg1 : FVec F S256x64 .f32) (main_arg2 : FVec F S64 .f32) (main_arg3 : FVec F S64x1 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_v13 main_v16
-- ==== Kernel.lean ====
abbrev S64x4096x256 : Shape := ⟨3, ![64, 4096, 256]⟩
abbrev S256x64 : Shape := ⟨2, ![256, 64]⟩
abbrev S64 : Shape := ⟨1, ![64]⟩
abbrev S64x1 : Shape := ⟨2, ![64, 1]⟩
abbrev S1x64 : Shape := ⟨2, ![1, 64]⟩
abbrev S64x256 : Shape := ⟨2, ![64, 256]⟩
abbrev S64x4096 : Shape := ⟨2, ![64, 4096]⟩
abbrev S32x256x256 : Shape := ⟨3, ![32, 256, 256]⟩
abbrev S32x256 : Shape := ⟨2, ![32, 256]⟩
abbrev S32x1 : Shape := ⟨2, ![32, 1]⟩
abbrev S8192x256 : Shape := ⟨2, ![8192, 256]⟩
abbrev S8192x64 : Shape := ⟨2, ![8192, 64]⟩
abbrev S32x256x64 : Shape := ⟨3, ![32, 256, 64]⟩
abbrev S1x1x64 : Shape := ⟨3, ![1, 1, 64]⟩
abbrev S32 : Shape := ⟨1, ![32]⟩
abbrev S32x256x1 : Shape := ⟨3, ![32, 256, 1]⟩
abbrev S64x4096x1 : Shape := ⟨3, ![64, 4096, 1]⟩

abbrev nBuf : Space → Nat
  | .hbm => 16
  | .vmem => 16
  | .smem => 0
  | _ => 0

abbrev bufTy : (tb : Table) → Fin (tcTables nBuf tb) → BufTy
  | .hbm, ⟨0, _⟩ => ⟨S64x4096x256, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1x64, .f32⟩
  | .hbm, ⟨5, _⟩ => ⟨S1x64, .f32⟩
  | .hbm, ⟨6, _⟩ => ⟨S64x256, .f32⟩
  | .hbm, ⟨7, _⟩ => ⟨S64x4096, .f32⟩
  | .hbm, ⟨8, _⟩ => ⟨S64x1, .f32⟩
  | .hbm, ⟨9, _⟩ => ⟨S64x1, .f32⟩
  | .hbm, ⟨10, _⟩ => ⟨S64x4096, .f32⟩
  | .hbm, ⟨11, _⟩ => ⟨S64x4096, .f32⟩
  | .hbm, ⟨12, _⟩ => ⟨S64x4096, .f32⟩
  | .hbm, ⟨13, _⟩ => ⟨S64x4096, .f32⟩
  | .hbm, ⟨14, _⟩ => ⟨S64x4096, .f32⟩
  | .hbm, ⟨15, _⟩ => ⟨S64x4096x1, .f32⟩
  | .local _ .vmem, ⟨0, _⟩ => ⟨S32x256x256, .f32⟩
  | .local _ .vmem, ⟨1, _⟩ => ⟨S32x256x256, .f32⟩
  | .local _ .vmem, ⟨2, _⟩ => ⟨S256x64, .f32⟩
  | .local _ .vmem, ⟨3, _⟩ => ⟨S1x64, .f32⟩
  | .local _ .vmem, ⟨4, _⟩ => ⟨S1x64, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S32x1, .f32⟩
  | .local _ .vmem, ⟨14, _⟩ => ⟨S32x1, .f32⟩
  | .local _ .vmem, ⟨15, _⟩ => ⟨S32x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_29 : BitVec 32 := 0#32
  let v56 : BitVec 1 := Scalar.cmpi .ne v55 c0_i32_29
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S64_S1x64 : S64.ShapeCasts S1x64
  shapeCasts_S64x1_S1x64 : S64x1.ShapeCasts S1x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x256x256_S32x256x256_0_0_0 : ∀ a, (![0, 0, 0] : Fin 3 → Nat) a + S32x256x256.size a ≤ S32x256x256.size a
  h_S32x256x256 : 0 < S32x256x256.numel
  shapeCasts_S32x256x256_S8192x256 : S32x256x256.ShapeCasts S8192x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  shapeCasts_S8192x64_S32x256x64 : S8192x64.ShapeCasts S32x256x64
  shapeCasts_S1x64_S1x1x64 : S1x64.ShapeCasts S1x1x64
  broadcasts_S1x1x64_S32x256x64 : S1x1x64.Broadcasts S32x256x64
  reduces_S32x256x64_S32x256 : S32x256x64.Reduces [2] S32x256
  reduces_S32x256_S32 : S32x256.Reduces [1] S32
  shapeCasts_S32_S32x1 : S32.ShapeCasts S32x1
  broadcasts_S32x1_S32x256 : S32x1.Broadcasts S32x256
  shapeCasts_S32x256_S32x256x1 : S32x256.ShapeCasts S32x256x1
  broadcasts_S32x256x1_S32x256x256 : S32x256x1.Broadcasts S32x256x256
  reduces_S32x256x256_S32x256 : S32x256x256.Reduces [1] S32x256
  bcast_S64x1_S64x4096_0_1 : S64x1.BroadcastsInDim S64x4096 (![0, 1] : Fin 2 → Fin S64x4096.rank)
  bcast_S64x4096_S64x4096x1_0_1 : S64x4096.BroadcastsInDim S64x4096x1 (![0, 1] : Fin 2 → Fin S64x4096x1.rank)
  dot_S8192x256_S256x64_S8192x64_1_0_0_1_n_n_wf : DotDims.WF S8192x256 S256x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S64x4096x256.size a
  hwx0_0 : ∀ i : grid0.Coords, EltTy.bits .f32 = 32 ∨ (Rect.block (s := S64x4096x256) S32x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S64x256.size a
  hwx0_4 : ∀ i : grid0.Coords, EltTy.bits .f32 = 32 ∨ (Rect.block (s := S64x256) S32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S64x4096.size a
  hwx0_5 : ∀ i : grid0.Coords, EltTy.bits .f32 = 32 ∨ (Rect.block (s := S64x4096) S32x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S64x1.size a
  hwx0_6 : ∀ i : grid0.Coords, EltTy.bits .f32 = 32 ∨ (Rect.block (s := S64x1) S32x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S64x1.size a
  hwx0_7 : ∀ i : grid0.Coords, EltTy.bits .f32 = 32 ∨ (Rect.block (s := S64x1) S32x1.size (cc0_transform_7 i) (hinb0_7 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_arg0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S32x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S32x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S32x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S32x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun i => !(k0_cond2 i == 1#1) | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x4096x256 : Shape := ⟨3, ![64, 4096, 256]⟩
abbrev S256x64 : Shape := ⟨2, ![256, 64]⟩
abbrev S64 : Shape := ⟨1, ![64]⟩
abbrev S64x1 : Shape := ⟨2, ![64, 1]⟩
abbrev S64x4096x64 : Shape := ⟨3, ![64, 4096, 64]⟩
abbrev S1x1x64 : Shape := ⟨3, ![1, 1, 64]⟩
abbrev S64x4096x1 : Shape := ⟨3, ![64, 4096, 1]⟩
abbrev S_ : Shape := ⟨0, ![]⟩
abbrev S64x1x1 : Shape := ⟨3, ![64, 1, 1]⟩
abbrev S64x256 : Shape := ⟨2, ![64, 256]⟩

abbrev nBuf : Space → Nat
  | .hbm => 28
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S64x4096x64, .f32⟩
  | .hbm, ⟨5, _⟩ => ⟨S1x1x64, .f32⟩
  | .hbm, ⟨6, _⟩ => ⟨S64x4096x64, .f32⟩
  | .hbm, ⟨7, _⟩ => ⟨S64x4096x64, .f32⟩
  | .hbm, ⟨8, _⟩ => ⟨S64x4096x64, .f32⟩
  | .hbm, ⟨9, _⟩ => ⟨S64x4096x1, .f32⟩
  | .hbm, ⟨10, _⟩ => ⟨S_, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x1x1, .f32⟩
  | .hbm, ⟨16, _⟩ => ⟨S64x4096x1, .f32⟩
  | .hbm, ⟨17, _⟩ => ⟨S64x4096x1, .f32⟩
  | .hbm, ⟨18, _⟩ => ⟨S64x4096x1, .f32⟩
  | .hbm, ⟨19, _⟩ => ⟨S_, .f32⟩
  | .hbm, ⟨20, _⟩ => ⟨S64x1, .f32⟩
  | .hbm, ⟨21, _⟩ => ⟨S64x1x1, .f32⟩
  | .hbm, ⟨22, _⟩ => ⟨S64x4096x1, .f32⟩
  | .hbm, ⟨23, _⟩ => ⟨S64x4096x1, .f32⟩
  | .hbm, ⟨24, _⟩ => ⟨S64x4096x256, .f32⟩
  | .hbm, ⟨25, _⟩ => ⟨S64x4096x256, .f32⟩
  | .hbm, ⟨26, _⟩ => ⟨S_, .f32⟩
  | .hbm, ⟨27, _⟩ => ⟨S64x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S64x4096x64_0_1_2 : S1x1x64.BroadcastsInDim S64x4096x64 (![0, 1, 2] : Fin 3 → Fin S64x4096x64.rank)
  reducesTo_S64x4096x1_S64x1_d1 : S64x4096x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  bcast_S64x4096x1_S64x4096x256_0_1_2 : S64x4096x1.BroadcastsInDim S64x4096x256 (![0, 1, 2] : Fin 3 → Fin S64x4096x256.rank)
  reducesTo_S64x4096x256_S64x256_d1 : S64x4096x256.ReducesTo [1] S64x256
  dot_S64x4096x256_S256x64_S64x4096x64_2_0_01_1_n_n_wf : DotDims.WF S64x4096x256 S256x64 S64x4096x64 [2] [0] [0, 1] [1] [] []
  dot_S64x4096x64_S64x1_S64x4096x1_2_0_01_1_n_n_wf : DotDims.WF S64x4096x64 S64x1 S64x4096x1 [2] [0] [0, 1] [1] [] []

variable [Facts₀]

def dot_S64x4096x256_S256x64_S64x4096x64_2_0_01_1_n_n : DotDims S64x4096x256 S256x64 S64x4096x64 where
  lhsContracting := [2]
  rhsContracting := [0]
  lhsNonContracting := [0, 1]
  rhsNonContracting := [1]
  lhsBatch := []
  rhsBatch := []
  wf := dot_S64x4096x256_S256x64_S64x4096x64_2_0_01_1_n_n_wf
def dot_S64x4096x64_S64x1_S64x4096x1_2_0_01_1_n_n : DotDims S64x4096x64 S64x1 S64x4096x1 where
  lhsContracting := [2]
  rhsContracting := [0]
  lhsNonContracting := [0, 1]
  rhsNonContracting := [1]
  lhsBatch := []
  rhsBatch := []
  wf := dot_S64x4096x64_S64x1_S64x4096x1_2_0_01_1_n_n_wf

class Facts : Prop extends Facts₀ where

variable [Facts]
-- ==== Proof.Spec.lean ====
/-
  Additive pooling attention, as one function of the four argument arrays.

  For a batch row b and a time step t the hidden vector is tanh (x[b,t,:] · W + bias), its score ("logit") is the
  inner product of the hidden vector with u. Over the time axis the scores are turned into softmax weights: the
  row's maximum (a fold of max from −∞) is subtracted, the exponentials are summed, each exponential is divided by
  the sum. The context vector of row b is the weighted sum over time of the input rows x[b,t,:].

  Everything is stated on the extended reals with the exact operations, index by index.
-/
import Idealize.ShloMosaic.PureOps.Ideal
import Idealize.ShloMosaic.Lib.ValueIdx

noncomputable section

open scoped BigOperators

namespace AttnPool

open Idealize.ShloMosaic Idealize.ShloMosaic.ValueIdx

/-- The inputs [64, 4096, 256]. -/
abbrev SX : Shape := ⟨3, ![64, 4096, 256]⟩
/-- The projection matrix [256, 64]. -/
abbrev SW : Shape := ⟨2, ![256, 64]⟩
/-- The bias [64]. -/
abbrev SB : Shape := ⟨1, ![64]⟩
/-- The scoring vector [64, 1]. -/
abbrev SU : Shape := ⟨2, ![64, 1]⟩
/-- The context vectors [64, 256]. -/
abbrev SC : Shape := ⟨2, ![64, 256]⟩
/-- The attention weights [64, 4096, 1]. -/
abbrev SA : Shape := ⟨3, ![64, 4096, 1]⟩

variable (x : SX.Idx → EReal) (w : SW.Idx → EReal) (bias : SB.Idx → EReal) (u : SU.Idx → EReal)

/-- Hidden unit k of row b at time t: tanh (∑ d, x[b,t,d] · W[d,k] + bias[k]). -/
def hidden (b : Fin 64) (t : Fin 4096) (k : Fin 64) : EReal :=
  Ideal.tanh ((∑ d : Fin 256, x (ix3 b t d) * w (ix2 d k)) + bias (ix1 k))

/-- The score of row b at time t: ∑ k, hidden[b,t,k] · u[k]. -/
def logit (b : Fin 64) (t : Fin 4096) : EReal :=
  ∑ k : Fin 64, hidden x w bias b t k * u (ix2 k (0 : Fin 1))

/-- The largest score of row b over time, as a fold of max from −∞. -/
def rowMax (b : Fin 64) : EReal :=
  (Finset.univ : Finset (Fin 4096)).fold max ⊥ (fun t => logit x w bias u b t)

/-- The unnormalised weight exp (score − row maximum). -/
def weight (b : Fin 64) (t : Fin 4096) : EReal :=
  Ideal.exp (logit x w bias u b t - rowMax x w bias u b)

/-- The normaliser of row b: the sum of its unnormalised weights. -/
def total (b : Fin 64) : EReal := ∑ t : Fin 4096, weight x w bias u b t

/-- The attention weight of time t in row b. -/
def attn (b : Fin 64) (t : Fin 4096) : EReal :=
  Ideal.div (weight x w bias u b t) (total x w bias u b)

/-- The context vector of row b at feature d: ∑ t, x[b,t,d] · attn[b,t]. -/
def ctx (b : Fin 64) (d : Fin 256) : EReal :=
  ∑ t : Fin 4096, x (ix3 b t d) * attn x w bias u b t

/-- The first result, [64, 256]. -/
def ctxArr : SC.Idx → EReal := fun i => ctx x w bias u (i 0) (i 1)

/-- The second result, [64, 4096, 1]. -/
def attnArr : SA.Idx → EReal := fun i => attn x w bias u (i 0) (i 1)

end AttnPool

end
-- ==== Proof.LibHostMid3.lean ====
/-
  The host's maximum along the MIDDLE axis of a rank-3 array, read at an index, on the extended reals and for any
  extents: a `stablehlo.reduce` over axis 1 of an [a, b, c] array whose body takes the larger of two values is, at
  (i, j), the fold of max from the initial value over the b entries (i, ·, j).
-/
import Idealize.ShloMosaic.PureOps.Ideal.Laws
import Idealize.ShloMosaic.Lib.ValueIdx

noncomputable section

open scoped BigOperators

namespace Idealize.ShloMosaic.HostMid3

open Idealize.ShloMosaic Idealize.ShloMosaic.ValueIdx

/-- The reduced index `(i, j)` with the middle coordinate `k` put back is `(i, k, j)`. -/
theorem lift_mid {a b c : ℕ} (h : (⟨3, ![a, b, c]⟩ : Shape).Reduces [1] ⟨2, ![a, c]⟩)
    (i : Fin a) (j : Fin c) (k : Fin b) : h.lift (ix2 i j) k = ix3 i k j :=
  funext fun x => Fin.ext (by match x with | ⟨0, _⟩ => rfl | ⟨1, _⟩ => rfl | ⟨2, _⟩ => rfl)

/-- On the extended reals the float maximum is the order's. -/
theorem maximumf_eq_max : (FloatOps.maximumf (F := Ideal) (φ := .f32)) = (max : EReal → EReal → EReal) := by
  funext x y; rfl

/-- A host reduce with max over the middle axis of an `[a, b, c]` array, at `(i, j)`: the fold of max over the
    entries `(i, ·, j)`. -/
theorem reduce_max_mid_apply {a b c : ℕ} (z : (⟨3, ![a, b, c]⟩ : Shape).Idx → EReal) {u : Shape} (init : u.Idx → EReal)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (j : Fin c) :
    Host.reduce (max : EReal → EReal → EReal) z init h' hu (ix2 i j)
      = (Finset.univ : Finset (Fin b)).fold max (init (Shape.Idx.first hu)) (fun k => z (ix3 i k j)) :=
  (Host.reduce_eq_fold_single max z init h' h hu (ix2 i j)).trans
    (Finset.fold_congr fun k _ => congrArg z (lift_mid h i j k))

end Idealize.ShloMosaic.HostMid3

end
-- ==== Proof.RefStages.lean ====
/-
  The reference program's stages read at an index.

  Stage by stage, the reference computes: the hidden units tanh (x · W + bias); their scores against u; the largest
  score of a row (a fold of max from −∞, then once more against −∞); the exponentials of the shifted scores; their
  sum (from 0); the quotient; the products of the inputs with the quotients, summed over time (from 0).  Each stage,
  read at explicit coordinates, is the corresponding piece of the specification, so the two results are the
  specification's context array and attention array.
-/
import proofs.«158354_j72310069395789_2_alg».proof.Defs
import proofs.«158354_j72310069395789_2_alg».proof.Proof.Gen.ReferenceIdeal.Read
import proofs.«158354_j72310069395789_2_alg».proof.Proof.Spec
import proofs.«158354_j72310069395789_2_alg».proof.Proof.LibHostMid3

noncomputable section

open scoped BigOperators

namespace Cert.ReferenceIdeal.RefStages

open Cert.ReferenceIdeal Cert.ReferenceIdeal.Gen Cert.ReferenceIdeal.Read
open Idealize.ShloMosaic Idealize.ShloMosaic.ValueIdx

/-- The f32 pattern 0xFF800000 is −∞. -/
theorem ninf_f32 : Ideal.ofBits .f32 0xFF800000#32 = (⊥ : EReal) := by simp [Ideal.ofBits, Ideal.ieee]

variable (x0 : S64x4096x256.Idx → EReal) (x1 : S256x64.Idx → EReal) (x2 : S64.Idx → EReal) (x3 : S64x1.Idx → EReal)

/-- The tanh stage at (b, t, k) is the hidden unit. -/
theorem hidden_at (b : Fin 64) (t : Fin 4096) (k : Fin 64) :
    val_main_v4 (F := Ideal) x0 x1 x2 (ix3 b t k) = AttnPool.hidden x0 x1 x2 b t k := by
  rw [val_main_v4_apply, val_main_v3_apply, val_main_v0_apply, val_main_v2_apply, val_main_v1_apply]
  have e0 : ∀ d : Fin 256, lidx_main_v0 (ix3 b t k) d = ix3 b t d := fun d => funext fun a => Fin.ext (by
    match a with | ⟨0, _⟩ => rfl | ⟨1, _⟩ => rfl | ⟨2, _⟩ => rfl)
  have e1 : ∀ d : Fin 256, ridx_main_v0 (ix3 b t k) d = ix2 d k := fun d => funext fun a => Fin.ext (by
    match a with | ⟨0, _⟩ => rfl | ⟨1, _⟩ => rfl)
  have e2 : idx_main_v1 (idx_main_v2 (ix3 b t k)) = ix1 k := funext fun a => Fin.ext (by
    match a with | ⟨0, _⟩ => rfl)
  simp only [e0, e1, e2]
  rfl

/-- The score stage at (b, t, ·) is the score. -/
theorem logit_at (b : Fin 64) (t : Fin 4096) (j : Fin 1) :
    val_main_v5 (F := Ideal) x0 x1 x2 x3 (ix3 b t j) = AttnPool.logit x0 x1 x2 x3 b t := by
  rw [val_main_v5_apply]
  unfold AttnPool.logit
  refine Finset.sum_congr rfl fun k _ => ?_
  have el : lidx_main_v5 (ix3 b t j) k = ix3 b t k := funext fun a => Fin.ext (by
    match a with | ⟨0, _⟩ => rfl | ⟨1, _⟩ => rfl | ⟨2, _⟩ => rfl)
  have er : ridx_main_v5 (ix3 b t j) k = ix2 k (0 : Fin 1) := funext fun a => Fin.ext (by
    match a with | ⟨0, _⟩ => rfl | ⟨1, _⟩ => exact Fin.val_eq_zero j)
  rw [el, er, hidden_at]

/-- The max-reduce over time at (b, ·) is the row's largest score. -/
theorem reduce_max_at (b : Fin 64) (j : Fin 1) :
    val_main_v6 (F := Ideal) x0 x1 x2 x3 (ix2 b j) = AttnPool.rowMax x0 x1 x2 x3 b := by
  unfold val_main_v6
  rw [HostMid3.maximumf_eq_max,
    HostMid3.reduce_max_mid_apply _ _ reducesTo_S64x4096x1_S64x1_d1 (by decide) h_S_ b j,
    val_main_cst_apply, Ideal.ofBits_def, ninf_f32]
  unfold AttnPool.rowMax
  exact Finset.fold_congr fun t _ => logit_at x0 x1 x2 x3 b t j

/-- Taking the larger of −∞ and the reduced maximum changes nothing. -/
theorem rowMax_at (b : Fin 64) (j : Fin 1) :
    val_main_v8 (F := Ideal) x0 x1 x2 x3 (ix2 b j) = AttnPool.rowMax x0 x1 x2 x3 b := by
  rw [val_main_v8_apply, val_main_v7_apply, val_main_cst_0_apply, Ideal.maximumf_def, Ideal.ofBits_def, ninf_f32,
    max_eq_right bot_le, reduce_max_at]

/-- The row maximum spread back over time. -/
theorem rowMax_spread_at (b : Fin 64) (t : Fin 4096) (j : Fin 1) :
    val_main_v10 (F := Ideal) x0 x1 x2 x3 (ix3 b t j) = AttnPool.rowMax x0 x1 x2 x3 b := by
  rw [val_main_v10_apply, val_main_v9_apply]
  have e : idx_main_v9 (idx_main_v10 (ix3 b t j)) = ix2 b (0 : Fin 1) := funext fun a => Fin.ext (by
    match a with | ⟨0, _⟩ => rfl | ⟨1, _⟩ => rfl)
  rw [e, rowMax_at]

/-- The exponential stage at (b, t, ·) is the unnormalised weight. -/
theorem weight_at (b : Fin 64) (t : Fin 4096) (j : Fin 1) :
    val_main_v12 (F := Ideal) x0 x1 x2 x3 (ix3 b t j) = AttnPool.weight x0 x1 x2 x3 b t := by
  rw [val_main_v12_apply, val_main_v11_apply, logit_at, rowMax_spread_at]
  rfl

/-- The sum of the exponentials over time, from 0, is the normaliser. -/
theorem total_at (b : Fin 64) (j : Fin 1) :
    val_main_v13 (F := Ideal) x0 x1 x2 x3 (ix2 b j) = AttnPool.total x0 x1 x2 x3 b := by
  rw [val_main_v13_apply, val_main_cst_1_apply, Ideal.ofBits_def, Ideal.ofBits_zero_f32, zero_add]
  unfold AttnPool.total
  refine Finset.sum_congr rfl fun t _ => ?_
  have e : idx_main_v13 (ix2 b j) t = ix3 b t j := funext fun a => Fin.ext (by
    match a with | ⟨0, _⟩ => rfl | ⟨1, _⟩ => rfl | ⟨2, _⟩ => rfl)
  rw [e, weight_at]

/-- The normaliser spread back over time. -/
theorem total_spread_at (b : Fin 64) (t : Fin 4096) (j : Fin 1) :
    val_main_v15 (F := Ideal) x0 x1 x2 x3 (ix3 b t j) = AttnPool.total x0 x1 x2 x3 b := by
  rw [val_main_v15_apply, val_main_v14_apply]
  have e : idx_main_v14 (idx_main_v15 (ix3 b t j)) = ix2 b (0 : Fin 1) := funext fun a => Fin.ext (by
    match a with | ⟨0, _⟩ => rfl | ⟨1, _⟩ => rfl)
  rw [e, total_at]

/-- The quotient stage at (b, t, ·) is the attention weight. -/
theorem attn_at (b : Fin 64) (t : Fin 4096) (j : Fin 1) :
    val_main_v16 (F := Ideal) x0 x1 x2 x3 (ix3 b t j) = AttnPool.attn x0 x1 x2 x3 b t := by
  rw [val_main_v16_apply, weight_at, total_spread_at]
  rfl

/-- The weighted sum over time, from 0, at (b, d) is the context vector's entry. -/
theorem ctx_at (b : Fin 64) (d : Fin 256) :
    val_main_v19 (F := Ideal) x0 x1 x2 x3 (ix2 b d) = AttnPool.ctx x0 x1 x2 x3 b d := by
  rw [val_main_v19_apply, val_main_cst_2_apply, Ideal.ofBits_def, Ideal.ofBits_zero_f32, zero_add]
  unfold AttnPool.ctx
  refine Finset.sum_congr rfl fun t _ => ?_
  have e : idx_main_v19 (ix2 b d) t = ix3 b t d := funext fun a => Fin.ext (by
    match a with | ⟨0, _⟩ => rfl | ⟨1, _⟩ => rfl | ⟨2, _⟩ => rfl)
  have e' : idx_main_v17 (ix3 b t d) = ix3 b t (0 : Fin 1) := funext fun a => Fin.ext (by
    match a with | ⟨0, _⟩ => rfl | ⟨1, _⟩ => rfl | ⟨2, _⟩ => rfl)
  rw [e, val_main_v18_apply, val_main_v17_apply, e', attn_at]
  rfl

/-- The reference's first result is the specification's context array. -/
theorem ref_ctx : val_main_v19 (F := Ideal) x0 x1 x2 x3 = AttnPool.ctxArr x0 x1 x2 x3 := by
  funext i
  obtain ⟨b, d, rfl⟩ : ∃ (b : Fin 64) (d : Fin 256), i = ix2 b d := ⟨i 0, i 1, eq_ix2 i⟩
  exact ctx_at x0 x1 x2 x3 b d

/-- The reference's second result is the specification's attention array. -/
theorem ref_attn : val_main_v16 (F := Ideal) x0 x1 x2 x3 = AttnPool.attnArr x0 x1 x2 x3 := by
  funext i
  obtain ⟨b, t, j, rfl⟩ : ∃ (b : Fin 64) (t : Fin 4096) (j : Fin 1), i = ix3 b t j := ⟨i 0, i 1, i 2, eq_ix3 i⟩
  exact attn_at x0 x1 x2 x3 b t j

end Cert.ReferenceIdeal.RefStages

namespace Cert.ReferenceIdeal.RefRun

open Cert.ReferenceIdeal Cert.ReferenceIdeal.Gen Cert.ReferenceIdeal.RefStages
open Idealize.ShloMosaic Idealize.ShloMosaic.TcCoe Idealize.SL.Sem Idealize.ShloMosaic.StableHlo

/-- The reference's run, with its two results named by the specification: from any memory with zero counters every
    weakly fair execution terminates with the first result the context array and the second the attention array of
    the four argument arrays, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = AttnPool.ctxArr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v16)
          = AttnPool.attnArr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans ((Read.val_main_v19_eq (F := Ideal) _ _ _ _).trans (ref_ctx _ _ _ _)),
        (h c).2.1.trans ((Read.val_main_v16_eq (F := Ideal) _ _ _ _).trans (ref_attn _ _ _ _)),
        (h c).2.2⟩)
    (Cert.ReferenceIdeal.Value.run (F := Ideal) m ρ)

end Cert.ReferenceIdeal.RefRun

end
-- ==== Proof.KernelPieces.lean ====
/-
  What each control case of the kernel body leaves behind, as values.

  The body keeps three running quantities per batch row in scratch memory: the maximum m, the denominator l and (per
  feature) the numerator acc. At a row's first time tile they are reset to −∞, 0, 0 before the update; at every tile the
  update replaces them by the tile step's values (the functions nextM, nextL, nextA of the tile's input blocks and the old
  values); every tile stores its block of scores; the last tile of a row also stores the context block
  acc · (1 / l) and copies m and l out.
-/
import proofs.«158354_j72310069395789_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum after a tile. -/
def nextM (x0 : Vec F S32x256x256 .f32) (x1 : Vec F S256x64 .f32) (x2 x3 : Vec F S1x64 .f32) (xs0 : Vec F S32x1 .f32) :
    Vec F S32x1 .f32 := k0_pay2 (k0_pay9 x0 x1 x2 x3 xs0)
/-- The running denominator after a tile. -/
def nextL (x0 : Vec F S32x256x256 .f32) (x1 : Vec F S256x64 .f32) (x2 x3 : Vec F S1x64 .f32) (xs0 xs1 : Vec F S32x1 .f32) :
    Vec F S32x1 .f32 := k0_pay1 (k0_pay10 x0 x1 x2 x3 xs0 xs0) (k0_pay12 x0 x1 x2 x3 xs0) xs1
/-- The running numerator after a tile. -/
def nextA (x0 : Vec F S32x256x256 .f32) (x1 : Vec F S256x64 .f32) (x2 x3 : Vec F S1x64 .f32) (xs0 : Vec F S32x1 .f32)
    (xs2 : Vec F S32x256 .f32) : Vec F S32x256 .f32 :=
  k0_pay3 x0 (k0_pay10 x0 x1 x2 x3 xs0 xs0) (k0_pay11 x0 x1 x2 x3 xs0) xs2

/-- At a row's first tile the running maximum becomes the tile step's maximum. -/
theorem max_A (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : cond0_0 i) (hc1 : ¬cond0_1 i) (x0 : Vec F S32x256x256 .f32) (x1 : Vec F S256x64 .f32) (x2 x3 : Vec F S1x64 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 = nextM x0 x1 x2 x3 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's first tile the running denominator becomes the tile step's denominator. -/
theorem den_A (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : cond0_0 i) (hc1 : ¬cond0_1 i) (x0 : Vec F S32x256x256 .f32) (x1 : Vec F S256x64 .f32) (x2 x3 : Vec F S1x64 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 = nextL x0 x1 x2 x3 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S32x1) hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's first tile the running numerator becomes the tile step's numerator. -/
theorem num_A (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : cond0_0 i) (hc1 : ¬cond0_1 i) (x0 : Vec F S32x256x256 .f32) (x1 : Vec F S256x64 .f32) (x2 x3 : Vec F S1x64 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 = nextA x0 x1 x2 x3 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S32x256) hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's first tile the scores block holds the tile's scores. -/
theorem scores_A (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : cond0_0 i) (hc1 : ¬cond0_1 i) (x0 : Vec F S32x256x256 .f32) (x1 : Vec F S256x64 .f32) (x2 x3 : Vec F S1x64 .f32) :
    out0_A_5 c i arg2 harg2 arg3 harg3 arg4 harg4 arg5 harg5 arg6 harg6 arg7 harg7 arg8 harg8 arg9 harg9 arg10 harg10 arg11 harg11 arg12 harg12 hc0 hc1 x0 x1 x2 x3 = k0_pay8 x0 x1 x2 x3 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]

/-- At a middle tile the running maximum becomes the tile step's maximum. -/
theorem max_B (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : ¬cond0_1 i) (x0 : Vec F S32x256x256 .f32) (x1 : Vec F S256x64 .f32) (x2 x3 : Vec F S1x64 .f32) (xs0 xs1 : Vec F S32x1 .f32) (xs2 : Vec F S32x256 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextM x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a middle tile the running denominator becomes the tile step's denominator. -/
theorem den_B (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : ¬cond0_1 i) (x0 : Vec F S32x256x256 .f32) (x1 : Vec F S256x64 .f32) (x2 x3 : Vec F S1x64 .f32) (xs0 xs1 : Vec F S32x1 .f32) (xs2 : Vec F S32x256 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextL x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a middle tile the running numerator becomes the tile step's numerator. -/
theorem num_B (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : ¬cond0_1 i) (x0 : Vec F S32x256x256 .f32) (x1 : Vec F S256x64 .f32) (x2 x3 : Vec F S1x64 .f32) (xs0 xs1 : Vec F S32x1 .f32) (xs2 : Vec F S32x256 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextA x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a middle tile the scores block holds the tile's scores. -/
theorem scores_B (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : ¬cond0_1 i) (x0 : Vec F S32x256x256 .f32) (x1 : Vec F S256x64 .f32) (x2 x3 : Vec F S1x64 .f32) (xs0 xs1 : Vec F S32x1 .f32) (xs2 : Vec F S32x256 .f32) :
    out0_B_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay8 x0 x1 x2 x3 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]

/-- At a row's last tile the running maximum becomes the tile step's maximum. -/
theorem max_C (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : cond0_1 i) (x0 : Vec F S32x256x256 .f32) (x1 : Vec F S256x64 .f32) (x2 x3 : Vec F S1x64 .f32) (xs0 xs1 : Vec F S32x1 .f32) (xs2 : Vec F S32x256 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextM x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's last tile the running denominator becomes the tile step's denominator. -/
theorem den_C (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : cond0_1 i) (x0 : Vec F S32x256x256 .f32) (x1 : Vec F S256x64 .f32) (x2 x3 : Vec F S1x64 .f32) (xs0 xs1 : Vec F S32x1 .f32) (xs2 : Vec F S32x256 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextL x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's last tile the running numerator becomes the tile step's numerator. -/
theorem num_C (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : cond0_1 i) (x0 : Vec F S32x256x256 .f32) (x1 : Vec F S256x64 .f32) (x2 x3 : Vec F S1x64 .f32) (xs0 xs1 : Vec F S32x1 .f32) (xs2 : Vec F S32x256 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextA x0 x1 x2 x3 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's last tile the scores block holds the tile's scores. -/
theorem scores_C (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : cond0_1 i) (x0 : Vec F S32x256x256 .f32) (x1 : Vec F S256x64 .f32) (x2 x3 : Vec F S1x64 .f32) (xs0 xs1 : Vec F S32x1 .f32) (xs2 : Vec F S32x256 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay8 x0 x1 x2 x3 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]

/-- At a row's last tile the context block holds numerator · (1 / denominator) of the state after that tile. -/
theorem context_C (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : cond0_1 i) (x0 : Vec F S32x256x256 .f32) (x1 : Vec F S256x64 .f32) (x2 x3 : Vec F S1x64 .f32) (xs0 xs1 : Vec F S32x1 .f32) (xs2 : Vec F S32x256 .f32) :
    out0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay4 (nextL x0 x1 x2 x3 xs0 xs1) (nextA x0 x1 x2 x3 xs0 xs2) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's last tile the maxima block holds the running maximum after that tile. -/
theorem maxOut_C (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : cond0_1 i) (x0 : Vec F S32x256x256 .f32) (x1 : Vec F S256x64 .f32) (x2 x3 : Vec F S1x64 .f32) (xs0 xs1 : Vec F S32x1 .f32) (xs2 : Vec F S32x256 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextM x0 x1 x2 x3 xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

/-- At a row's last tile the sums block holds the running denominator after that tile. -/
theorem denOut_C (c : Dev nD) (i : grid0.Coords) (arg2 : Memref sig .tc .vmem S32x256x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S32x1 .f32) (harg10 : arg10.IsWhole) (arg11 : Memref sig .tc .vmem S32x1 .f32) (harg11 : arg11.IsWhole) (arg12 : Memref sig .tc .vmem S32x256 .f32) (harg12 : arg12.IsWhole) (hc0 : ¬cond0_0 i) (hc1 : cond0_1 i) (x0 : Vec F S32x256x256 .f32) (x1 : Vec F S256x64 .f32) (x2 x3 : Vec F S1x64 .f32) (xs0 xs1 : Vec F S32x1 .f32) (xs2 : Vec F S32x256 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 xs0 xs1 xs2 = nextL x0 x1 x2 x3 xs0 xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg10.read_unread, harg11.read_unread, harg12.read_unread, View.ld_unit_zero (S := S32x256x256) hz3, View.ld_unit_zero (S := S256x64) hz2, View.ld_unit_zero (S := S1x64) hz2, View.ld_unit_zero (S := S32x1) hz2, View.ld_unit_zero (S := S32x256) hz2, View.readCov_unit_zero (S := S32x1) _ hz2, View.readCov_unit_zero (S := S32x256) _ hz2]
  rfl

end Cert.KernelIdeal.Pieces

end
-- ==== Proof.KernelPoint.lean ====
/-
  What the scratch and the output buffers hold after each grid point, in terms of the point's input blocks and of what the
  point before left in the scratch.

  Grid point t handles the batch half t / 16 and the time tile t mod 16. At a row's first tile (t mod 16 = 0) the scratch
  is the tile step of the reset state (−∞, 0, 0); at any other tile it is the tile step of what the point before left.
  Every point stores its scores; a row's last tile (t mod 16 = 15) also stores numerator · (1 / denominator), the maximum
  and the denominator of the state it has just computed.
-/
import proofs.«158354_j72310069395789_2_alg».proof.Proof.KernelPieces

set_option maxRecDepth 16384
-- the accumulation's case equations are statements about seven long terms at once
set_option maxHeartbeats 1600000

noncomputable section

open Idealize.ShloMosaic Idealize.ShloMosaic.TcCoe Idealize.SL.Sem

namespace Cert.KernelIdeal.Point

open Cert.KernelIdeal Cert.KernelIdeal.Gen

variable {F : FTy → Type} [FloatOps F]
variable (m : (ℓ : Loc nD τ sig) → Buf (Elt F) ℓ)

/-- What the point before t left (the generated accumulation at t − 1). -/
abbrev prev (c : Dev nD) (t : Fin cfg0.N) :=
  outsAt0 m c (t.val - 1) (Nat.lt_of_le_of_lt (Nat.sub_le _ _) t.isLt)

/-- The running maximum after a row's first tile. -/
theorem max_first (c : Dev nD) (t : Fin cfg0.N) (h0 : t.val % 16 = 0) (h1 : ¬t.val % 16 = 15) :
    (outsAt0 m c t.val t.isLt).2.2.2.2.1 = Pieces.nextM (iblk m c 0 t) (iblk m c 1 t) (iblk m c 2 t) (iblk m c 3 t) k0_pay5 :=
  (congrArg (fun z => z.2.2.2.2.1) (outsAt0_A m c t h0 h1)).trans (Pieces.max_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))

/-- The running denominator after a row's first tile. -/
theorem den_first (c : Dev nD) (t : Fin cfg0.N) (h0 : t.val % 16 = 0) (h1 : ¬t.val % 16 = 15) :
    (outsAt0 m c t.val t.isLt).2.2.2.2.2.1 = Pieces.nextL (iblk m c 0 t) (iblk m c 1 t) (iblk m c 2 t) (iblk m c 3 t) k0_pay5 k0_pay6 :=
  (congrArg (fun z => z.2.2.2.2.2.1) (outsAt0_A m c t h0 h1)).trans (Pieces.den_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))

/-- The running numerator after a row's first tile. -/
theorem num_first (c : Dev nD) (t : Fin cfg0.N) (h0 : t.val % 16 = 0) (h1 : ¬t.val % 16 = 15) :
    (outsAt0 m c t.val t.isLt).2.2.2.2.2.2 = Pieces.nextA (iblk m c 0 t) (iblk m c 1 t) (iblk m c 2 t) (iblk m c 3 t) k0_pay5 k0_pay7 :=
  (congrArg (fun z => z.2.2.2.2.2.2) (outsAt0_A m c t h0 h1)).trans (Pieces.num_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))

/-- The running maximum after a later tile. -/
theorem max_next (c : Dev nD) (t : Fin cfg0.N) (h0 : ¬t.val % 16 = 0) :
    (outsAt0 m c t.val t.isLt).2.2.2.2.1 = Pieces.nextM (iblk m c 0 t) (iblk m c 1 t) (iblk m c 2 t) (iblk m c 3 t) (prev m c t).2.2.2.2.1 := by
  by_cases h1 : t.val % 16 = 15
  · exact (congrArg (fun z => z.2.2.2.2.1) (outsAt0_C m c t h0 h1)).trans (Pieces.max_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.2.2.1 (prev m c t).2.2.2.2.2.1 (prev m c t).2.2.2.2.2.2)
  · exact (congrArg (fun z => z.2.2.2.2.1) (outsAt0_B m c t h0 h1)).trans (Pieces.max_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.2.2.1 (prev m c t).2.2.2.2.2.1 (prev m c t).2.2.2.2.2.2)

/-- The running denominator after a later tile. -/
theorem den_next (c : Dev nD) (t : Fin cfg0.N) (h0 : ¬t.val % 16 = 0) :
    (outsAt0 m c t.val t.isLt).2.2.2.2.2.1 = Pieces.nextL (iblk m c 0 t) (iblk m c 1 t) (iblk m c 2 t) (iblk m c 3 t) (prev m c t).2.2.2.2.1 (prev m c t).2.2.2.2.2.1 := by
  by_cases h1 : t.val % 16 = 15
  · exact (congrArg (fun z => z.2.2.2.2.2.1) (outsAt0_C m c t h0 h1)).trans (Pieces.den_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.2.2.1 (prev m c t).2.2.2.2.2.1 (prev m c t).2.2.2.2.2.2)
  · exact (congrArg (fun z => z.2.2.2.2.2.1) (outsAt0_B m c t h0 h1)).trans (Pieces.den_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.2.2.1 (prev m c t).2.2.2.2.2.1 (prev m c t).2.2.2.2.2.2)

/-- The running numerator after a later tile. -/
theorem num_next (c : Dev nD) (t : Fin cfg0.N) (h0 : ¬t.val % 16 = 0) :
    (outsAt0 m c t.val t.isLt).2.2.2.2.2.2 = Pieces.nextA (iblk m c 0 t) (iblk m c 1 t) (iblk m c 2 t) (iblk m c 3 t) (prev m c t).2.2.2.2.1 (prev m c t).2.2.2.2.2.2 := by
  by_cases h1 : t.val % 16 = 15
  · exact (congrArg (fun z => z.2.2.2.2.2.2) (outsAt0_C m c t h0 h1)).trans (Pieces.num_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.2.2.1 (prev m c t).2.2.2.2.2.1 (prev m c t).2.2.2.2.2.2)
  · exact (congrArg (fun z => z.2.2.2.2.2.2) (outsAt0_B m c t h0 h1)).trans (Pieces.num_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.2.2.1 (prev m c t).2.2.2.2.2.1 (prev m c t).2.2.2.2.2.2)

/-- Every point stores the scores of its tile. -/
theorem scores_at (c : Dev nD) (t : Fin cfg0.N) :
    (outsAt0 m c t.val t.isLt).2.1 = k0_pay8 (iblk m c 0 t) (iblk m c 1 t) (iblk m c 2 t) (iblk m c 3 t) := by
  by_cases h0 : t.val % 16 = 0
  · have h1 : ¬t.val % 16 = 15 := by omega
    exact (congrArg (fun z => z.2.1) (outsAt0_A m c t h0 h1)).trans (Pieces.scores_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))
  · by_cases h1 : t.val % 16 = 15
    · exact (congrArg (fun z => z.2.1) (outsAt0_C m c t h0 h1)).trans (Pieces.scores_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.2.2.1 (prev m c t).2.2.2.2.2.1 (prev m c t).2.2.2.2.2.2)
    · exact (congrArg (fun z => z.2.1) (outsAt0_B m c t h0 h1)).trans (Pieces.scores_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.2.2.1 (prev m c t).2.2.2.2.2.1 (prev m c t).2.2.2.2.2.2)

/-- A row's last tile stores numerator · (1 / denominator) of the state it leaves. -/
theorem context_last (c : Dev nD) (t : Fin cfg0.N) (h0 : ¬t.val % 16 = 0) (h1 : t.val % 16 = 15) :
    (outsAt0 m c t.val t.isLt).1
      = k0_pay4 (outsAt0 m c t.val t.isLt).2.2.2.2.2.1 (outsAt0 m c t.val t.isLt).2.2.2.2.2.2 := by
  rw [den_next m c t h0, num_next m c t h0]
  exact (congrArg (fun z => z.1) (outsAt0_C m c t h0 h1)).trans (Pieces.context_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.2.2.1 (prev m c t).2.2.2.2.2.1 (prev m c t).2.2.2.2.2.2)

/-- A row's last tile copies out the running maximum it leaves. -/
theorem maxOut_last (c : Dev nD) (t : Fin cfg0.N) (h0 : ¬t.val % 16 = 0) (h1 : t.val % 16 = 15) :
    (outsAt0 m c t.val t.isLt).2.2.1 = (outsAt0 m c t.val t.isLt).2.2.2.2.1 := by
  rw [max_next m c t h0]
  exact (congrArg (fun z => z.2.2.1) (outsAt0_C m c t h0 h1)).trans (Pieces.maxOut_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.2.2.1 (prev m c t).2.2.2.2.2.1 (prev m c t).2.2.2.2.2.2)

/-- A row's last tile copies out the running denominator it leaves. -/
theorem denOut_last (c : Dev nD) (t : Fin cfg0.N) (h0 : ¬t.val % 16 = 0) (h1 : t.val % 16 = 15) :
    (outsAt0 m c t.val t.isLt).2.2.2.1 = (outsAt0 m c t.val t.isLt).2.2.2.2.2.1 := by
  rw [den_next m c t h0]
  exact (congrArg (fun z => z.2.2.2.1) (outsAt0_C m c t h0 h1)).trans (Pieces.denOut_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.2.2.1 (prev m c t).2.2.2.2.2.1 (prev m c t).2.2.2.2.2.2)

end Cert.KernelIdeal.Point

end
-- ==== Proof.LibLayout3.lean ====
/-
  Layout operations of rank-2 and rank-3 arrays read at an index by coordinates, for any extents:
  a trailing or middle unit axis added to a matrix; a unit axis broadcast; a vector laid along the last axis of a rank-3 array;
  the two leading axes of a rank-3 array merged into one (row-major) and split again.
-/
import Idealize.ShloMosaic.Lib.Pipeline.Value
import Idealize.ShloMosaic.Lib.ValueIdx
import Idealize.ShloMosaic.Lib.ValueLayout

namespace Idealize.ShloMosaic.Layout3

open Idealize.ShloMosaic Idealize.ShloMosaic.ValueIdx

variable {α : Type}

/-- An `[a, b]` array cast to `[a, b, 1]` reads at `(i, j, u)` the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- An `[a, b, 1]` array broadcast to `[a, b, c]` reads at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (by
    intro d
    match d with
    | ⟨0, _⟩ =>
      show i.val = if a = 1 then 0 else i.val
      split
      · next e => have := i.isLt; omega
      · rfl
    | ⟨1, _⟩ =>
      show j.val = if b = 1 then 0 else j.val
      split
      · next e => have := j.isLt; omega
      · rfl
    | ⟨2, _⟩ => show (0 : ℕ) = if (1 : ℕ) = 1 then 0 else k.val; rw [if_pos rfl])

/-- An `[a, 1, c]` array broadcast to `[a, b, c]` reads at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (by
    intro d
    match d with
    | ⟨0, _⟩ =>
      show i.val = if a = 1 then 0 else i.val
      split
      · next e => have := i.isLt; omega
      · rfl
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- A `[1, 1, c]` array broadcast to `[a, b, c]` reads at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (by
    intro d
    match d with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- An `[a, b, c]` array with its two leading axes merged, `[n, c]` with `n = a·b`, reads at row `i·b + j` the operand at
    `(i, j, ·)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- And split again: an `[n, c]` array cast to `[a, b, c]` reads at `(i, j, k)` the operand at row `i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.Layout3
-- ==== Proof.LibLane3.lean ====
/-
  Float lane reductions over the LAST axis of a rank-3 array, read at an index on the extended reals, for any extents:
  over [a, b, c] into [a, b], at (i, j), a lane sum into the zero accumulator is the sum of the c entries (i, j, ·), and a
  lane maximum is the fold of max from the accumulator's value over those entries.
-/
import Idealize.ShloMosaic.PureOps.Ideal.Laws
import Idealize.ShloMosaic.Lib.ValueIdx

noncomputable section

open scoped BigOperators

namespace Idealize.ShloMosaic.Lane3

open Idealize.ShloMosaic Idealize.ShloMosaic.ValueIdx

/-- The reduced index `(i, j)` with the last coordinate `k` put back is `(i, j, k)`. -/
theorem lift_last {a b c : ℕ} (h : (⟨3, ![a, b, c]⟩ : Shape).Reduces [2] ⟨2, ![a, b]⟩)
    (i : Fin a) (j : Fin b) (k : Fin c) : h.lift (ix2 i j) k = ix3 i j k :=
  funext fun x => Fin.ext (by match x with | ⟨0, _⟩ => rfl | ⟨1, _⟩ => rfl | ⟨2, _⟩ => rfl)

/-- A lane sum over the last axis of an `[a, b, c]` array, at `(i, j)`: the sum of the entries `(i, j, ·)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

/-- A lane maximum over the last axis of an `[a, b, c]` array, at `(i, j)`: the fold of max over the entries `(i, j, ·)`. -/
theorem multiReduction_max_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (Finset.fold_congr fun k _ => congrArg src (lift_last h i j k))

end Idealize.ShloMosaic.Lane3

end
-- ==== Proof.LibLaneMid3.lean ====
/-
  A float lane sum over the MIDDLE axis of a rank-3 array, read at an index on the extended reals, for any extents:
  over [a, b, c] into [a, c], at (i, k), a lane sum into the zero accumulator is the sum of the b entries (i, ·, k).
  (What `jnp.sum(x, axis=1)` of a rank-3 value lowers to in a vector program.)
-/
import Idealize.ShloMosaic.PureOps.Ideal.Laws
import Idealize.ShloMosaic.Lib.ValueIdx

noncomputable section

open scoped BigOperators

namespace Idealize.ShloMosaic.LaneMid3

open Idealize.ShloMosaic Idealize.ShloMosaic.ValueIdx

/-- The reduced index (i, k) of a sum over the middle axis, with the middle coordinate j put back, is (i, j, k). -/
theorem lift_mid {a b c : ℕ} (h : (⟨3, ![a, b, c]⟩ : Shape).Reduces [1] ⟨2, ![a, c]⟩)
    (i : Fin a) (k : Fin c) (j : Fin b) : h.lift (ix2 i k) j = ix3 i j k :=
  funext fun x => Fin.ext (by match x with | ⟨0, _⟩ => rfl | ⟨1, _⟩ => rfl | ⟨2, _⟩ => rfl)

/-- A lane sum over the middle axis of an [a, b, c] array into the zero accumulator, at (i, k): ∑ j, src (i, j, k). -/
theorem multiReduction_add_mid_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid h i k j))

end Idealize.ShloMosaic.LaneMid3

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«158354_j72310069395789_2_alg».proof.Proof.LibContract
import proofs.«158354_j72310069395789_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibOnlineSoftmax.lean ====
/-
  Online ("flash") softmax: the pure mathematics.

  A softmax-weighted sum  ∑ t, (exp (S t − M) / ∑ t', exp (S t' − M)) · V t  over a large key set can be computed
  one tile of keys at a time, carrying three numbers: a running maximum m, a running denominator l and a running
  numerator a. A new tile with scores s and values v replaces m by m' = max m (max s), rescales l and a by
  exp (m − m') and adds the tile's  ∑ exp (s k − m')  and  ∑ exp (s k − m') · v k.

  The reason this is exact: write D m = ∑ exp (S t − m) and N m = ∑ exp (S t − m) · V t for the sums over the keys
  seen so far, as functions of a real shift m. Both satisfy  exp (m − m') · F m = F m'  (because
  exp (m − m') · exp (x − m) = exp (x − m')), this property is kept by sums, and so the state after any number of
  tiles is (m, D m, N m) for some real m. Which real m it is does not matter: the quotient N m / D m is the same for
  every m, in particular for the global maximum, and (∑ e_t · V t) / Z = ∑ (e_t / Z) · V t.

  At the first tile the state is (−∞, 0, 0): exp (−∞ − m') = 0 wipes the zero state and the new maximum is the real
  maximum of the (nonempty) tile; from then on every quantity is the coercion of a real number.
-/
import Mathlib.Data.EReal.Inv
import Mathlib.Analysis.SpecialFunctions.Exp
import Mathlib.Data.Fintype.BigOperators
import Mathlib.Algebra.BigOperators.Fin
import Idealize.ShloMosaic.PureOps.Ideal

noncomputable section

open scoped BigOperators

namespace OnlineSoftmax

open Idealize.ShloMosaic

/-- The state before any key tile: running maximum −∞, denominator 0, numerator 0. -/
def init : EReal × EReal × EReal := (⊥, 0, 0)

/-- One key tile: scores s, values v (one output column). New maximum m' = max m (max of the tile's scores);
    the old denominator and numerator are rescaled by exp (m − m') and the tile's exp (s k − m') (· v k) are added. -/
def step {b : ℕ} (p : EReal × EReal × EReal) (s v : Fin b → EReal) : EReal × EReal × EReal :=
  (max p.1 ((Finset.univ : Finset (Fin b)).fold max ⊥ s),
   Ideal.exp (p.1 - max p.1 ((Finset.univ : Finset (Fin b)).fold max ⊥ s)) * p.2.1
     + ∑ k : Fin b, Ideal.exp (s k - max p.1 ((Finset.univ : Finset (Fin b)).fold max ⊥ s)),
   Ideal.exp (p.1 - max p.1 ((Finset.univ : Finset (Fin b)).fold max ⊥ s)) * p.2.2
     + ∑ k : Fin b, Ideal.exp (s k - max p.1 ((Finset.univ : Finset (Fin b)).fold max ⊥ s)) * v k)

/-! ### Coercions -/

/-- The coercion of the reals into the extended reals commutes with finite sums. -/
theorem coe_sum {ι : Type*} (T : Finset ι) (f : ι → ℝ) :
    ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The fold of max from −∞ over a nonempty finite family of (coerced) reals is the coercion of the family's
    real maximum. -/
theorem fold_max_coe {ι : Type*} (T : Finset ι) (hT : T.Nonempty) (f : ι → ℝ) :
    T.fold max ⊥ (fun i => (f i : EReal)) = ((T.sup' hT f : ℝ) : EReal) := by
  induction hT using Finset.Nonempty.cons_induction with
  | singleton a => rw [Finset.fold_singleton, Finset.sup'_singleton, max_eq_left bot_le]
  | cons a T ha hT ih => rw [Finset.fold_cons, ih, Finset.sup'_cons hT, ← coe_max]

/-- The maximum of a nonempty tile of real scores. -/
def tileMax {b : ℕ} (hb : 0 < b) (s : Fin b → ℝ) : ℝ :=
  (Finset.univ : Finset (Fin b)).sup' ⟨⟨0, hb⟩, Finset.mem_univ _⟩ s

/-- The fold of max from −∞ over a nonempty tile of coerced real scores is the coerced tile maximum. -/
theorem fold_max_tile {b : ℕ} (hb : 0 < b) (s : Fin b → ℝ) :
    (Finset.univ : Finset (Fin b)).fold max ⊥ (fun k => (s k : EReal)) = ((tileMax hb s : ℝ) : EReal) :=
  fold_max_coe _ _ s

/-! ### Shifted exponential sums -/

/-- The denominator sum of a family of scores, as a function of the shift m: ∑ exp (s i − m). -/
def den {ι : Type*} [Fintype ι] (s : ι → ℝ) (m : ℝ) : ℝ := ∑ i, Real.exp (s i - m)

/-- The numerator sum of a family of scores and values, as a function of the shift m: ∑ exp (s i − m) · v i. -/
def num {ι : Type*} [Fintype ι] (s v : ι → ℝ) (m : ℝ) : ℝ := ∑ i, Real.exp (s i - m) * v i

/-- A function of the shift rescales when changing the shift from m to m' multiplies it by exp (m − m'). -/
def Rescales (F : ℝ → ℝ) : Prop := ∀ m m' : ℝ, Real.exp (m - m') * F m = F m'

/-- exp (m − m') · exp (x − m) = exp (x − m'). -/
theorem exp_shift (x m m' : ℝ) : Real.exp (m - m') * Real.exp (x - m) = Real.exp (x - m') := by
  rw [← Real.exp_add]; congr 1; ring

/-- The denominator sum rescales. -/
theorem den_rescales {ι : Type*} [Fintype ι] (s : ι → ℝ) : Rescales (den s) := by
  intro m m'
  unfold den
  rw [Finset.mul_sum]
  exact Finset.sum_congr rfl fun i _ => exp_shift _ _ _

/-- The numerator sum rescales. -/
theorem num_rescales {ι : Type*} [Fintype ι] (s v : ι → ℝ) : Rescales (num s v) := by
  intro m m'
  unfold num
  rw [Finset.mul_sum]
  exact Finset.sum_congr rfl fun i _ => by rw [← mul_assoc, exp_shift]

/-- The sum of two rescaling functions rescales. -/
theorem Rescales.add {F G : ℝ → ℝ} (hF : Rescales F) (hG : Rescales G) : Rescales (F + G) := by
  intro m m'
  rw [Pi.add_apply, Pi.add_apply, mul_add, hF m m', hG m m']

/-! ### The state after some tiles -/

/-- The state is (m, D m, N m) for some real shift m. -/
def Tracks (D N : ℝ → ℝ) (p : EReal × EReal × EReal) : Prop :=
  ∃ m : ℝ, p = ((m : EReal), ((D m : ℝ) : EReal), ((N m : ℝ) : EReal))

/-- One tile on a real state: the new shift is the real maximum, the old sums are rescaled and the tile's sums at
    the new shift are added. -/
theorem step_coe {b : ℕ} (hb : 0 < b) (s v : Fin b → ℝ) (m l a : ℝ) :
    step ((m : EReal), (l : EReal), (a : EReal)) (fun k => (s k : EReal)) (fun k => (v k : EReal))
      = (((max m (tileMax hb s) : ℝ) : EReal),
         ((Real.exp (m - max m (tileMax hb s)) * l + den s (max m (tileMax hb s)) : ℝ) : EReal),
         ((Real.exp (m - max m (tileMax hb s)) * a + num s v (max m (tileMax hb s)) : ℝ) : EReal)) := by
  unfold step den num
  simp only [fold_max_tile hb, ← coe_max, ← EReal.coe_sub, Ideal.exp_coe, ← EReal.coe_mul, ← coe_sum,
    ← EReal.coe_add]

/-- The first tile: exp (−∞ − m') = 0 wipes the zero state, and the state becomes the tile's own sums at the tile's
    maximum. -/
theorem step_init {b : ℕ} (hb : 0 < b) (s v : Fin b → ℝ) :
    step init (fun k => (s k : EReal)) (fun k => (v k : EReal))
      = (((tileMax hb s : ℝ) : EReal), ((den s (tileMax hb s) : ℝ) : EReal),
         ((num s v (tileMax hb s) : ℝ) : EReal)) := by
  unfold step init den num
  simp only [fold_max_tile hb, max_eq_right (bot_le : (⊥ : EReal) ≤ _), EReal.bot_sub, Ideal.exp_bot, zero_mul,
    zero_add, ← EReal.coe_sub, Ideal.exp_coe, ← EReal.coe_mul, ← coe_sum]

/-- After the first tile the state tracks that tile's sums. -/
theorem tracks_init {b : ℕ} (hb : 0 < b) (s v : Fin b → ℝ) :
    Tracks (den s) (num s v) (step init (fun k => (s k : EReal)) (fun k => (v k : EReal))) :=
  ⟨tileMax hb s, step_init hb s v⟩

/-- A further tile: a state tracking rescaling sums D, N tracks D + (the tile's denominator sum) and
    N + (the tile's numerator sum) afterwards. -/
theorem Tracks.step {b : ℕ} (hb : 0 < b) {D N : ℝ → ℝ} {p : EReal × EReal × EReal} (h : Tracks D N p)
    (hD : Rescales D) (hN : Rescales N) (s v : Fin b → ℝ) :
    Tracks (D + den s) (N + num s v) (step p (fun k => (s k : EReal)) (fun k => (v k : EReal))) := by
  obtain ⟨m, rfl⟩ := h
  refine ⟨max m (tileMax hb s), ?_⟩
  rw [step_coe hb, hD m, hN m]
  rfl

/-! ### The quotient -/

/-- A denominator sum over a nonempty family is positive. -/
theorem den_pos {ι : Type*} [Fintype ι] [Nonempty ι] (s : ι → ℝ) (m : ℝ) : 0 < den s m :=
  Finset.sum_pos (fun _ _ => Real.exp_pos _) Finset.univ_nonempty

/-- Over the reals, the quotient of the sums at any shift m is the softmax-weighted sum written with any other
    shift g, each weight divided first. -/
theorem real_quotient {ι : Type*} [Fintype ι] [Nonempty ι] (s v : ι → ℝ) (m g : ℝ) :
    num s v m * (1 / den s m) = ∑ i, Real.exp (s i - g) * (1 / den s g) * v i := by
  have hg : den s g ≠ 0 := (den_pos s g).ne'
  have he : Real.exp (g - m) ≠ 0 := (Real.exp_pos _).ne'
  rw [← num_rescales s v g m, ← den_rescales s g m, mul_one_div, mul_div_mul_left _ _ he]
  unfold num
  rw [Finset.sum_div]
  exact Finset.sum_congr rfl fun i _ => by rw [mul_one_div, div_mul_eq_mul_div]

/-- A state tracking the sums over a whole nonempty index type: numerator / denominator is the softmax-weighted sum,
    the softmax written with the global maximum (the fold of max from −∞) and each weight divided first. -/
theorem Tracks.quotient {τ : Type*} [Fintype τ] [Nonempty τ] (S Vv : τ → ℝ) {D N : ℝ → ℝ}
    {p : EReal × EReal × EReal} (h : Tracks D N p) (hD : ∀ m, D m = den S m) (hN : ∀ m, N m = num S Vv m) :
    Ideal.div p.2.2 p.2.1
      = ∑ t : τ, Ideal.div
          (Ideal.exp (((S t : ℝ) : EReal) - (Finset.univ : Finset τ).fold max ⊥ (fun t' => ((S t' : ℝ) : EReal))))
          (∑ t' : τ, Ideal.exp (((S t' : ℝ) : EReal) - (Finset.univ : Finset τ).fold max ⊥ (fun t'' => ((S t'' : ℝ) : EReal))))
        * ((Vv t : ℝ) : EReal) := by
  obtain ⟨m, rfl⟩ := h
  rw [fold_max_coe _ Finset.univ_nonempty S]
  set g : ℝ := (Finset.univ : Finset τ).sup' Finset.univ_nonempty S
  have hsum : (∑ t' : τ, Ideal.exp (((S t' : ℝ) : EReal) - (g : EReal))) = ((den S g : ℝ) : EReal) := by
    unfold den
    simp only [← EReal.coe_sub, Ideal.exp_coe, ← coe_sum]
  rw [hsum]
  simp only [hD, hN, Ideal.div_coe (den_pos S g).ne', Ideal.div_coe (den_pos S m).ne', ← EReal.coe_sub,
    Ideal.exp_coe, ← EReal.coe_mul, ← coe_sum]
  rw [real_quotient S Vv m g]

/-! ### Four tiles -/

/-- Four tiles of b real scores each, re-indexed by e onto one index type τ (τ = all keys), then the quotient
    numerator / denominator is the softmax-weighted sum over τ, in the form "each weight divided first". -/
theorem flash4_eq_softmax {b : ℕ} (hb : 0 < b) {τ : Type*} [Fintype τ] (e : Fin 4 × Fin b ≃ τ) (S Vv : τ → ℝ) :
    Ideal.div
      (step (step (step (step init (fun k => ((S (e (0, k)) : ℝ) : EReal)) (fun k => ((Vv (e (0, k)) : ℝ) : EReal)))
        (fun k => ((S (e (1, k)) : ℝ) : EReal)) (fun k => ((Vv (e (1, k)) : ℝ) : EReal)))
        (fun k => ((S (e (2, k)) : ℝ) : EReal)) (fun k => ((Vv (e (2, k)) : ℝ) : EReal)))
        (fun k => ((S (e (3, k)) : ℝ) : EReal)) (fun k => ((Vv (e (3, k)) : ℝ) : EReal))).2.2
      (step (step (step (step init (fun k => ((S (e (0, k)) : ℝ) : EReal)) (fun k => ((Vv (e (0, k)) : ℝ) : EReal)))
        (fun k => ((S (e (1, k)) : ℝ) : EReal)) (fun k => ((Vv (e (1, k)) : ℝ) : EReal)))
        (fun k => ((S (e (2, k)) : ℝ) : EReal)) (fun k => ((Vv (e (2, k)) : ℝ) : EReal)))
        (fun k => ((S (e (3, k)) : ℝ) : EReal)) (fun k => ((Vv (e (3, k)) : ℝ) : EReal))).2.1
    = ∑ t : τ, Ideal.div
        (Ideal.exp (((S t : ℝ) : EReal) - (Finset.univ : Finset τ).fold max ⊥ (fun t' => ((S t' : ℝ) : EReal))))
        (∑ t' : τ, Ideal.exp (((S t' : ℝ) : EReal) - (Finset.univ : Finset τ).fold max ⊥ (fun t'' => ((S t'' : ℝ) : EReal))))
      * ((Vv t : ℝ) : EReal) := by
  haveI : Nonempty τ := ⟨e (0, ⟨0, hb⟩)⟩
  have h1 := tracks_init hb (fun k => S (e (0, k))) (fun k => Vv (e (0, k)))
  have r1D := den_rescales (fun k : Fin b => S (e (0, k)))
  have r1N := num_rescales (fun k : Fin b => S (e (0, k))) (fun k => Vv (e (0, k)))
  have h2 := h1.step hb r1D r1N (fun k => S (e (1, k))) (fun k => Vv (e (1, k)))
  have r2D := r1D.add (den_rescales (fun k : Fin b => S (e (1, k))))
  have r2N := r1N.add (num_rescales (fun k : Fin b => S (e (1, k))) (fun k => Vv (e (1, k))))
  have h3 := h2.step hb r2D r2N (fun k => S (e (2, k))) (fun k => Vv (e (2, k)))
  have r3D := r2D.add (den_rescales (fun k : Fin b => S (e (2, k))))
  have r3N := r2N.add (num_rescales (fun k : Fin b => S (e (2, k))) (fun k => Vv (e (2, k))))
  have h4 := h3.step hb r3D r3N (fun k => S (e (3, k))) (fun k => Vv (e (3, k)))
  refine h4.quotient S Vv ?_ ?_
  · intro m
    simp only [Pi.add_apply, den]
    rw [← e.sum_comp, Fintype.sum_prod_type, Fin.sum_univ_four]
  · intro m
    simp only [Pi.add_apply, num]
    rw [← e.sum_comp, Fintype.sum_prod_type, Fin.sum_univ_four]

end OnlineSoftmax

end
-- ==== Proof.KernelTile.lean ====
/-
  One time tile of the kernel body, read entry by entry on the extended reals.

  The body sees a block x of 32 batch rows × 256 time steps × 256 features, the projection matrix w, and the bias and the
  scoring vector as rows. For a row p and a time step q of the block it computes the score
      ∑ k, tanh (∑ d, x (p,q,d) · w (d,k) + bias k) · u k,
  then, from the running maximum m, the running denominator l and the running numerator acc of row p it computes the
  new maximum max m (max over q of the scores), the rescaling factor exp (m − new maximum), the weights
  exp (score − new maximum), the new denominator and, feature by feature, the new numerator. Entry by entry this is one
  step of the online softmax with the tile's scores as scores and the tile's feature column as values.
-/
import proofs.«158354_j72310069395789_2_alg».proof.Proof.Gen.KernelIdeal.Skeleton
import proofs.«158354_j72310069395789_2_alg».proof.Proof.LibLayout3
import proofs.«158354_j72310069395789_2_alg».proof.Proof.LibLane3
import proofs.«158354_j72310069395789_2_alg».proof.Proof.LibLaneMid3
import proofs.«158354_j72310069395789_2_alg».proof.Proof.LibGram
import proofs.«158354_j72310069395789_2_alg».proof.Proof.LibRowSum
import proofs.«158354_j72310069395789_2_alg».proof.Proof.LibColumn
import proofs.«158354_j72310069395789_2_alg».proof.Proof.LibDenseVec
import proofs.«158354_j72310069395789_2_alg».proof.Proof.LibOnlineSoftmax
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The f32 pattern 0xFF800000 is −∞. -/
theorem ofBits_ninf : Ideal.ofBits .f32 0xFF800000#32 = ⊥ := by simp [Ideal.ofBits, Ideal.ieee]

/-- The body's matrix product contracts the block's feature axis with the matrix's row axis. -/
theorem plain : DenseVec.Plain dot_S8192x256_S256x64_S8192x64_1_0_0_1_n_n where
  rank := rfl
  size := fun _ => rfl
  lhs := rfl
  rhs := rfl
  row := fun j q => by
    unfold DotDims.lhsIdx
    rw [dif_neg (show ¬(0 : Fin S8192x256.rank) ∈ dot_S8192x256_S256x64_S8192x64_1_0_0_1_n_n.lhsBatch by decide),
      dif_pos (show (0 : Fin S8192x256.rank) ∈ dot_S8192x256_S256x64_S8192x64_1_0_0_1_n_n.lhsNonContracting by decide)]
    rfl
  col := fun j q => by
    unfold DotDims.rhsIdx
    rw [dif_neg (show ¬(1 : Fin S256x64.rank) ∈ dot_S8192x256_S256x64_S8192x64_1_0_0_1_n_n.rhsBatch by decide),
      dif_pos (show (1 : Fin S256x64.rank) ∈ dot_S8192x256_S256x64_S8192x64_1_0_0_1_n_n.rhsNonContracting by decide)]
    rfl

variable (x : Vec Ideal S32x256x256 .f32) (w : Vec Ideal S256x64 .f32) (br ur : Vec Ideal S1x64 .f32)

/-- The score of row p at time step q of the block. -/
theorem score_apply (p : Fin 32) (q : Fin 256) :
    k0_pay8 (F := Ideal) x w br ur (ix2 p q)
      = ∑ k : Fin 64, Ideal.tanh ((∑ d : Fin 256, x (ix3 p q d) * w (ix2 d k)) + br (ix2 (0 : Fin 1) k))
          * ur (ix2 (0 : Fin 1) k) := by
  unfold k0_pay8
  refine (Lane3.multiReduction_add_last_apply _ _ _ _ _ p q).trans (Finset.sum_congr rfl fun k _ => ?_)
  refine (mulf_apply _ _ _).trans (congrArg₂ (· * ·) ?_ ?_)
  · refine (Layout3.shapeCast_nc_abc_apply _ _ p q k
      ⟨p.val * 256 + q.val, by have := p.isLt; have := q.isLt; omega⟩ rfl).trans ?_
    show Ideal.tanh _ = Ideal.tanh _
    refine congrArg Ideal.tanh ?_
    refine (addf_apply _ _ _).trans (congrArg₂ (· + ·) ?_ ?_)
    · refine (DenseVec.matmul_zero_ix2 plain none _ _ _ k).trans (Finset.sum_congr rfl fun d _ => ?_)
      refine congrArg₂ (· * ·) ?_ rfl
      exact Layout3.shapeCast_abc_nc_apply x _ p q d _ rfl
    · refine (broadcastTo_1b_ab_apply _ _ _ k).trans ?_
      exact congrFun (shapeCast_self br _) _
  · refine (Layout3.broadcastTo_11c_abc_apply _ _ p q k).trans ?_
    refine (Layout3.shapeCast_ac_a1c_apply _ _ (0 : Fin 1) (0 : Fin 1) k).trans ?_
    exact congrFun (shapeCast_self ur _) _

/-- The tile's scores of row p. -/
def sc (p : Fin 32) : Fin 256 → EReal := fun q => k0_pay8 (F := Ideal) x w br ur (ix2 p q)

/-- The tile's feature column d of row p. -/
def vl (p : Fin 32) (d : Fin 256) : Fin 256 → EReal := fun q => x (ix3 p q d)

variable (mp : Vec Ideal S32x1 .f32)

/-- The new running maximum of row p. -/
theorem newMax_apply (p : Fin 32) :
    k0_pay9 (F := Ideal) x w br ur mp (ix2 p (0 : Fin 1))
      = max (mp (ix2 p (0 : Fin 1))) ((Finset.univ : Finset (Fin 256)).fold max ⊥ (sc x w br ur p)) := by
  unfold k0_pay9
  refine (maximumf_apply _ _ _).trans (congrArg (max _) ?_)
  refine (shapeCast_a_a1_apply _ _ p (0 : Fin 1)).trans ?_
  refine (Gram.multiReduction_max_rows_apply _ _ _ _ _ p).trans ?_
  rw [ofBits_ninf]
  rfl

/-- The rescaling factor of row p: exp (old maximum − new maximum). -/
theorem rescale_apply (p : Fin 32) :
    k0_pay10 (F := Ideal) x w br ur mp mp (ix2 p (0 : Fin 1))
      = Ideal.exp (mp (ix2 p (0 : Fin 1)) - k0_pay9 (F := Ideal) x w br ur mp (ix2 p (0 : Fin 1))) := by
  unfold k0_pay10
  rfl

/-- The weight of time step q of row p: exp (score − new maximum). -/
theorem weight_apply (p : Fin 32) (q : Fin 256) :
    k0_pay11 (F := Ideal) x w br ur mp (ix2 p q)
      = Ideal.exp (sc x w br ur p q - k0_pay9 (F := Ideal) x w br ur mp (ix2 p (0 : Fin 1))) := by
  unfold k0_pay11
  show Ideal.exp _ = Ideal.exp _
  refine congrArg Ideal.exp ?_
  refine (subf_apply _ _ _).trans (congrArg₂ (· - ·) rfl ?_)
  exact broadcastTo_a1_ab_apply _ _ p q

/-- The tile's sum of weights of row p. -/
theorem tileSum_apply (p : Fin 32) :
    k0_pay12 (F := Ideal) x w br ur mp (ix2 p (0 : Fin 1))
      = ∑ q : Fin 256, Ideal.exp (sc x w br ur p q - k0_pay9 (F := Ideal) x w br ur mp (ix2 p (0 : Fin 1))) := by
  unfold k0_pay12
  refine (shapeCast_a_a1_apply _ _ p (0 : Fin 1)).trans ?_
  refine (multiReduction_add_rows_apply _ _ _ _ p).trans (Finset.sum_congr rfl fun q _ => ?_)
  exact weight_apply x w br ur mp p q

variable (lp : Vec Ideal S32x1 .f32) (ap : Vec Ideal S32x256 .f32)

/-- The body's new running maximum of row p is the online softmax step's. -/
theorem step_max (p : Fin 32) (l a : EReal) (v : Fin 256 → EReal) :
    k0_pay2 (F := Ideal) (k0_pay9 x w br ur mp) (ix2 p (0 : Fin 1))
      = (OnlineSoftmax.step (mp (ix2 p (0 : Fin 1)), l, a) (sc x w br ur p) v).1 := by
  unfold k0_pay2
  refine (congrFun (shapeCast_self _ _) _).trans ?_
  exact newMax_apply x w br ur mp p

/-- The body's new running denominator of row p is the online softmax step's. -/
theorem step_den (p : Fin 32) (a : EReal) (v : Fin 256 → EReal) :
    k0_pay1 (F := Ideal) (k0_pay10 x w br ur mp mp) (k0_pay12 x w br ur mp) lp (ix2 p (0 : Fin 1))
      = (OnlineSoftmax.step (mp (ix2 p (0 : Fin 1)), lp (ix2 p (0 : Fin 1)), a) (sc x w br ur p) v).2.1 := by
  unfold k0_pay1
  refine (congrFun (shapeCast_self _ _) _).trans ?_
  refine (addf_apply _ _ _).trans ?_
  refine congrArg₂ (· + ·) ((mulf_apply _ _ _).trans (congrArg₂ (· * ·) ?_ rfl)) ?_
  · rw [rescale_apply, newMax_apply]
  · rw [tileSum_apply, newMax_apply]

/-- The body's new running numerator of row p at feature d is the online softmax step's, the tile's feature column as
    values. -/
theorem step_num (p : Fin 32) (d : Fin 256) (l : EReal) :
    k0_pay3 (F := Ideal) x (k0_pay10 x w br ur mp mp) (k0_pay11 x w br ur mp) ap (ix2 p d)
      = (OnlineSoftmax.step (mp (ix2 p (0 : Fin 1)), l, ap (ix2 p d)) (sc x w br ur p) (vl x p d)).2.2 := by
  unfold k0_pay3
  refine (congrFun (shapeCast_self _ _) _).trans ?_
  refine (addf_apply _ _ _).trans ?_
  refine congrArg₂ (· + ·) ((mulf_apply _ _ _).trans (congrArg₂ (· * ·) ?_ rfl)) ?_
  · refine (broadcastTo_a1_ab_apply _ _ p d).trans ?_
    rw [rescale_apply, newMax_apply]
  · refine (LaneMid3.multiReduction_add_mid_apply _ _ _ _ _ p d).trans (Finset.sum_congr rfl fun q _ => ?_)
    refine (mulf_apply _ _ _).trans ?_
    rw [mul_comm]
    refine congrArg₂ (· * ·) ?_ rfl
    refine (Layout3.broadcastTo_ab1_abc_apply _ _ p q d).trans ?_
    refine (Layout3.shapeCast_ab_ab1_apply _ _ p q (0 : Fin 1)).trans ?_
    rw [weight_apply, newMax_apply]

/-- The state the first tile starts from: −∞, 0, 0. -/
theorem init_max (p : Fin 32) : k0_pay5 (F := Ideal) (ix2 p (0 : Fin 1)) = OnlineSoftmax.init.1 := by
  unfold k0_pay5
  refine (congrFun (shapeCast_self _ _) _).trans ?_
  exact ofBits_ninf
theorem init_den (p : Fin 32) : k0_pay6 (F := Ideal) (ix2 p (0 : Fin 1)) = OnlineSoftmax.init.2.1 := by
  unfold k0_pay6
  refine (congrFun (shapeCast_self _ _) _).trans ?_
  exact Ideal.ofBits_zero_f32
theorem init_num (p : Fin 32) (d : Fin 256) : k0_pay7 (F := Ideal) (ix2 p d) = OnlineSoftmax.init.2.2 := by
  unfold k0_pay7
  refine (congrFun (shapeCast_self _ _) _).trans ?_
  exact Ideal.ofBits_zero_f32

/-- The context block written at the last tile: numerator · (1 / denominator). -/
theorem context_apply (p : Fin 32) (d : Fin 256) :
    k0_pay4 (F := Ideal) lp ap (ix2 p d) = ap (ix2 p d) * Ideal.div 1 (lp (ix2 p (0 : Fin 1))) := by
  unfold k0_pay4
  refine (mulf_apply _ _ _).trans (congrArg₂ (· * ·) rfl ?_)
  refine (broadcastTo_a1_ab_apply _ _ p d).trans ?_
  show Ideal.div (Ideal.ofBits .f32 0x3F800000#32) _ = _
  rw [DenseVec.ofBits_one_f32]

end Cert.KernelIdeal.Tile

end
-- ==== Proof.KernelBlocks.lean ====
/-
  Each input window's block at a grid point is a part of an argument array.

  The grid has 2 × 16 points; point t has coordinates (t / 16, t % 16). The input is read in blocks of 32 batch rows by
  256 time steps by all 256 features, block (t / 16, t % 16, 0): its entry (p, q, d) is the input at
  ((t / 16)·32 + p, (t % 16)·256 + q, d). The projection matrix, the bias and the scoring vector are read whole at every
  point; the last two reach the region reshaped to one row of 64 entries, and a reshape keeps the row-major position.
-/
import proofs.«158354_j72310069395789_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.ValueIdx Idealize.ShloMosaic.TcCoe
  Idealize.SL.Sem

variable {F : FTy → Type} [FloatOps F] (m : (ℓ : Loc nD τ sig) → Buf (Elt F) ℓ)

/-! ### The printed index maps, decided once over the grid -/

theorem idx_x : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx_w : ∀ t : Fin cfg0.N, win0_1.index t 0 = 0 ∧ win0_1.index t 1 = 0 :=
  (by decide +kernel : ∀ t : Fin grid0.N, win0_1.index t 0 = 0 ∧ win0_1.index t 1 = 0)
theorem idx_b : ∀ t : Fin cfg0.N, win0_2.index t 0 = 0 ∧ win0_2.index t 1 = 0 :=
  (by decide +kernel : ∀ t : Fin grid0.N, win0_2.index t 0 = 0 ∧ win0_2.index t 1 = 0)
theorem idx_u : ∀ t : Fin cfg0.N, win0_3.index t 0 = 0 ∧ win0_3.index t 1 = 0 :=
  (by decide +kernel : ∀ t : Fin grid0.N, win0_3.index t 0 = 0 ∧ win0_3.index t 1 = 0)

/-! ### The two row vectors the region finds: the bias and the scoring vector, reshaped to one row -/

/-- When the region is entered the array of window 2 holds the bias [64] reshaped to [1, 64]. -/
theorem V_main_v0 (c : Dev nD) :
    (V m c main_v0 : S1x64.Idx → Elt F .f32)
      = shapeCast S1x64 (m ((c : Thread nD τ).loc main_arg2) : S64.Idx → Elt F .f32) Facts₀.shapeCasts_S64_S1x64 := by
  show StableHlo.after hostOps0 (fun b => m (c, b)) (Proc.devRef .tc main_v0) = _
  after_results
  rfl

/-- When the region is entered the array of window 3 holds the scoring vector [64, 1] reshaped to [1, 64]. -/
theorem V_main_v1 (c : Dev nD) :
    (V m c main_v1 : S1x64.Idx → Elt F .f32)
      = shapeCast S1x64 (m ((c : Thread nD τ).loc main_arg3) : S64x1.Idx → Elt F .f32) Facts₀.shapeCasts_S64x1_S1x64 := by
  show StableHlo.after hostOps0 (fun b => m (c, b)) (Proc.devRef .tc main_v1) = _
  after_results
  rfl

/-! ### Each window's block at a grid point is a part of an argument array -/

/-- The input block at grid point t = (t / 16, t % 16): batch rows (t / 16)·32 …, time steps (t % 16)·256 …, all
    features. -/
theorem iblk_x (c : Dev nD) (t : Fin cfg0.N) (p : Fin 32) (q d : Fin 256)
    (hb : (t.val / 16) * 32 + p.val < 64) (ht : (t.val % 16) * 256 + q.val < 4096) :
    (iblk m c 0 t : Vec F S32x256x256 .f32) (ix3 p q d)
      = m ((c : Thread nD τ).loc main_arg0) (ix3 ⟨(t.val / 16) * 32 + p.val, hb⟩ ⟨(t.val % 16) * 256 + q.val, ht⟩ d) := by
  have hi := idx_x t
  unfold iblk
  rw [View.read_apply]
  show V m c main_arg0 _ = _
  rw [V_main_arg0]
  congr 1
  funext a
  apply Fin.ext
  match a with
  | ⟨0, _⟩ => show win0_0.index t 0 * 32 + 1 * p.val = (t.val / 16) * 32 + p.val; rw [hi.1]; omega
  | ⟨1, _⟩ => show win0_0.index t 1 * 256 + 1 * q.val = (t.val % 16) * 256 + q.val; rw [hi.2.1]; omega
  | ⟨2, _⟩ => show win0_0.index t 2 * 256 + 1 * d.val = d.val; rw [hi.2.2]; omega

/-- The projection matrix is read whole at every grid point. -/
theorem iblk_w (c : Dev nD) (t : Fin cfg0.N) (d : Fin 256) (k : Fin 64) :
    (iblk m c 1 t : Vec F S256x64 .f32) (ix2 d k) = m ((c : Thread nD τ).loc main_arg1) (ix2 d k) := by
  have hi := idx_w t
  unfold iblk
  rw [View.read_apply]
  show V m c main_arg1 _ = _
  rw [V_main_arg1]
  congr 1
  funext a
  apply Fin.ext
  match a with
  | ⟨0, _⟩ => show win0_1.index t 0 * 256 + 1 * d.val = d.val; rw [hi.1]; omega
  | ⟨1, _⟩ => show win0_1.index t 1 * 64 + 1 * k.val = k.val; rw [hi.2]; omega

/-- The bias row is read whole at every grid point: entry (0, k) is the bias at k. -/
theorem iblk_b (c : Dev nD) (t : Fin cfg0.N) (k : Fin 64) :
    (iblk m c 2 t : Vec F S1x64 .f32) (ix2 (0 : Fin 1) k) = m ((c : Thread nD τ).loc main_arg2) (ix1 k) := by
  have hi := idx_b t
  unfold iblk
  rw [View.read_apply]
  show (V m c main_v0 : S1x64.Idx → Elt F .f32) _ = _
  rw [V_main_v0]
  refine (shapeCast_apply _ _ _ (ix1 k) ?_).trans rfl
  rw [Shape.rowMajor_val_one, Shape.rowMajor_val_two]
  show k.val = (win0_2.index t 0 * 1 + 1 * 0) * 64 + (win0_2.index t 1 * 64 + 1 * k.val)
  rw [hi.1, hi.2]
  omega

/-- The scoring row is read whole at every grid point: entry (0, k) is the scoring vector at (k, 0). -/
theorem iblk_u (c : Dev nD) (t : Fin cfg0.N) (k : Fin 64) :
    (iblk m c 3 t : Vec F S1x64 .f32) (ix2 (0 : Fin 1) k) = m ((c : Thread nD τ).loc main_arg3) (ix2 k (0 : Fin 1)) := by
  have hi := idx_u t
  unfold iblk
  rw [View.read_apply]
  show (V m c main_v1 : S1x64.Idx → Elt F .f32) _ = _
  rw [V_main_v1]
  refine (shapeCast_apply _ _ _ (ix2 k (0 : Fin 1)) ?_).trans rfl
  rw [Shape.rowMajor_val_two, Shape.rowMajor_val_two]
  show k.val * 1 + 0 = (win0_3.index t 0 * 1 + 1 * 0) * 64 + (win0_3.index t 1 * 64 + 1 * k.val)
  rw [hi.1, hi.2]
  omega

end Cert.KernelIdeal.Blocks

end
-- ==== Proof.KernelBlocksSpec.lean ====
/-
  The kernel body's tile scores and tile values, read off the argument arrays.

  At grid point t = (t / 16, t % 16) the body's score of block row p at block time step q is the score of batch row
  (t / 16)·32 + p at time step (t % 16)·256 + q, and the body's feature column d of that row is the input at that batch
  row and time step, feature d: each block entry is an entry of an argument array.
-/
import proofs.«158354_j72310069395789_2_alg».proof.Proof.KernelBlocks
import proofs.«158354_j72310069395789_2_alg».proof.Proof.KernelTile
import proofs.«158354_j72310069395789_2_alg».proof.Proof.Spec

set_option maxRecDepth 16384

noncomputable section

namespace Cert.KernelIdeal.Blocks

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ)

/-- The body's score of block row p at block time step q is the score of batch row (t / 16)·32 + p at time step
    (t % 16)·256 + q. -/
theorem sc_global (c : Dev nD) (t : Fin cfg0.N) (p : Fin 32) (q : Fin 256)
    (hb : (t.val / 16) * 32 + p.val < 64) (ht : (t.val % 16) * 256 + q.val < 4096) :
    Tile.sc (iblk m c 0 t) (iblk m c 1 t) (iblk m c 2 t) (iblk m c 3 t) p q
      = AttnPool.logit (m ((c : Thread nD τ).loc main_arg0)) (m ((c : Thread nD τ).loc main_arg1))
          (m ((c : Thread nD τ).loc main_arg2)) (m ((c : Thread nD τ).loc main_arg3))
          ⟨(t.val / 16) * 32 + p.val, hb⟩ ⟨(t.val % 16) * 256 + q.val, ht⟩ := by
  unfold Tile.sc
  rw [Tile.score_apply]
  unfold AttnPool.logit AttnPool.hidden
  refine Finset.sum_congr rfl fun k _ => ?_
  rw [iblk_b, iblk_u]
  refine congrArg₂ (· * ·) (congrArg Ideal.tanh (congrArg₂ (· + ·) (Finset.sum_congr rfl fun d _ => ?_) rfl)) rfl
  rw [iblk_x m c t p q d hb ht, iblk_w]

/-- The body's feature column d of block row p at block time step q is the input at batch row (t / 16)·32 + p, time
    step (t % 16)·256 + q, feature d. -/
theorem vl_global (c : Dev nD) (t : Fin cfg0.N) (p : Fin 32) (d q : Fin 256)
    (hb : (t.val / 16) * 32 + p.val < 64) (ht : (t.val % 16) * 256 + q.val < 4096) :
    Tile.vl (iblk m c 0 t) p d q
      = m ((c : Thread nD τ).loc main_arg0) (ix3 ⟨(t.val / 16) * 32 + p.val, hb⟩ ⟨(t.val % 16) * 256 + q.val, ht⟩ d) := by
  unfold Tile.vl
  exact iblk_x m c t p q d hb ht

end Cert.KernelIdeal.Blocks

end
-- ==== Proof.TileRun.lean ====
/-
  The online softmax state after a number of time tiles.

  A row's 4096 time steps are visited in 16 tiles of 256. The state (running maximum, rescaled denominator,
  rescaled numerator) starts at (−∞, 0, 0) and takes one step per tile.
-/
import proofs.«158354_j72310069395789_2_alg».proof.Proof.LibOnlineSoftmax

noncomputable section

namespace AttnPool

/-- The state after tiles 0 … j, for tile scores sc j and tile values vl j. -/
def runTiles (sc vl : ℕ → Fin 256 → EReal) : ℕ → EReal × EReal × EReal
  | 0 => OnlineSoftmax.step OnlineSoftmax.init (sc 0) (vl 0)
  | j + 1 => OnlineSoftmax.step (runTiles sc vl j) (sc (j + 1)) (vl (j + 1))

theorem runTiles_zero (sc vl : ℕ → Fin 256 → EReal) :
    runTiles sc vl 0 = OnlineSoftmax.step OnlineSoftmax.init (sc 0) (vl 0) := rfl

theorem runTiles_succ (sc vl : ℕ → Fin 256 → EReal) (j : ℕ) :
    runTiles sc vl (j + 1) = OnlineSoftmax.step (runTiles sc vl j) (sc (j + 1)) (vl (j + 1)) := rfl

end AttnPool

end
-- ==== Proof.TileArgs.lean ====
/-
  The online softmax's arguments for a batch row, and the results in tile form.

  Row b's time steps are visited in 16 tiles of 256: tile j, entry k is time step 256·j + k. The tile scores are the
  row's scores, the tile values of feature d are the inputs x[b, ·, d]. After the sixteenth tile the state is
  (a maximum, a denominator, a numerator); the kernel's context entry is numerator · (1 / denominator), and its two
  small outputs are the maximum and the denominator.
-/
import proofs.«158354_j72310069395789_2_alg».proof.Proof.Spec
import proofs.«158354_j72310069395789_2_alg».proof.Proof.TileRun

noncomputable section

namespace AttnPool

open Idealize.ShloMosaic Idealize.ShloMosaic.ValueIdx

variable (x : SX.Idx → EReal) (w : SW.Idx → EReal) (bias : SB.Idx → EReal) (u : SU.Idx → EReal)

/-- Row b's scores by tile: tile j, entry k is the score at time step 256·j + k (0 past the end). -/
def scG (b : Fin 64) : ℕ → Fin 256 → EReal :=
  fun j k => if h : j * 256 + k.val < 4096 then logit x w bias u b ⟨j * 256 + k.val, h⟩ else 0

/-- Row b's feature d by tile: tile j, entry k is x[b, 256·j + k, d] (0 past the end). -/
def vlG (b : Fin 64) (d : Fin 256) : ℕ → Fin 256 → EReal :=
  fun j k => if h : j * 256 + k.val < 4096 then x (ix3 b ⟨j * 256 + k.val, h⟩ d) else 0

/-- The scores as a [64, 4096] array. -/
def logitArr : (⟨2, ![64, 4096]⟩ : Shape).Idx → EReal := fun i => logit x w bias u (i 0) (i 1)

/-- The context in tile form: numerator · (1 / denominator) of the state after the sixteenth tile. -/
def ctxTiles : SC.Idx → EReal := fun i =>
  (runTiles (scG x w bias u (i 0)) (vlG x (i 0) (i 1)) 15).2.2
    * Ideal.div 1 (runTiles (scG x w bias u (i 0)) (vlG x (i 0) (i 1)) 15).2.1

/-- The running maximum after the sixteenth tile, as a [64, 1] array (the values are those of feature 0; the maximum
    does not depend on them). -/
def maxTiles : (⟨2, ![64, 1]⟩ : Shape).Idx → EReal := fun i =>
  (runTiles (scG x w bias u (i 0)) (vlG x (i 0) (0 : Fin 256)) 15).1

/-- The running denominator after the sixteenth tile, as a [64, 1] array. -/
def sumTiles : (⟨2, ![64, 1]⟩ : Shape).Idx → EReal := fun i =>
  (runTiles (scG x w bias u (i 0)) (vlG x (i 0) (0 : Fin 256)) 15).2.1

end AttnPool

end
-- ==== Proof.KernelState.lean ====
/-
  The scratch after each grid point is the online softmax state of the rows it serves.

  Grid point n serves the batch rows (n / 16)·32 + p, p < 32, at time tile n mod 16. For such a row b and a feature d, the
  entries (maximum at p, denominator at p, numerator at (p, d)) of the scratch after point n are the state of the online
  softmax of row b's scores, with feature d of the inputs as values, after tiles 0 … n mod 16. By induction on the point:
  a row's first tile starts from the reset state, any other tile from what the point before left, and in both cases the body's
  update is one step (the tile's scores and values are the row's, by the block lemmas).
  From this, what each point writes back: its scores block is the score array's; a row's last tile writes the context,
  maximum and denominator of the state after the sixteenth tile.
-/
import proofs.«158354_j72310069395789_2_alg».proof.Proof.KernelPoint
import proofs.«158354_j72310069395789_2_alg».proof.Proof.KernelTile
import proofs.«158354_j72310069395789_2_alg».proof.Proof.KernelBlocksSpec
import proofs.«158354_j72310069395789_2_alg».proof.Proof.TileArgs

set_option maxRecDepth 16384

noncomputable section

open Idealize.ShloMosaic Idealize.ShloMosaic.TcCoe Idealize.SL.Sem Idealize.ShloMosaic.ValueIdx

namespace Cert.KernelIdeal.State

open Cert.KernelIdeal Cert.KernelIdeal.Gen AttnPool

/-- One tile of the body, entry by entry, is one step of the online softmax on the entries of the old state. -/
theorem tile_state (x0 : Vec Ideal S32x256x256 .f32) (x1 : Vec Ideal S256x64 .f32) (x2 x3 : Vec Ideal S1x64 .f32)
    (mp lp : Vec Ideal S32x1 .f32) (ap : Vec Ideal S32x256 .f32) (p : Fin 32) (d : Fin 256) :
    (Pieces.nextM x0 x1 x2 x3 mp (ix2 p (0 : Fin 1)), Pieces.nextL x0 x1 x2 x3 mp lp (ix2 p (0 : Fin 1)),
        Pieces.nextA x0 x1 x2 x3 mp ap (ix2 p d))
      = OnlineSoftmax.step (mp (ix2 p (0 : Fin 1)), lp (ix2 p (0 : Fin 1)), ap (ix2 p d))
          (Tile.sc x0 x1 x2 x3 p) (Tile.vl x0 p d) :=
  Prod.ext (Tile.step_max x0 x1 x2 x3 mp p _ _ _)
    (Prod.ext (Tile.step_den x0 x1 x2 x3 mp lp p _ _) (Tile.step_num x0 x1 x2 x3 mp ap p d _))

/-- The reset state, entry by entry. -/
theorem reset_state (p : Fin 32) (d : Fin 256) :
    (k0_pay5 (F := Ideal) (ix2 p (0 : Fin 1)), k0_pay6 (F := Ideal) (ix2 p (0 : Fin 1)), k0_pay7 (F := Ideal) (ix2 p d))
      = OnlineSoftmax.init :=
  Prod.ext (Tile.init_max p) (Prod.ext (Tile.init_den p) (Tile.init_num p d))

variable (m : (ℓ : Loc nD τ sig) → Buf (Elt Ideal) ℓ)

/-- The tile's scores of row p at point n are row b's scores of tile n mod 16. -/
theorem sc_link (c : Dev nD) (n : ℕ) (h : n < cfg0.N) (p : Fin 32) (b : Fin 64) (hb : b.val = (n / 16) * 32 + p.val) :
    Tile.sc (iblk m c 0 ⟨n, h⟩) (iblk m c 1 ⟨n, h⟩) (iblk m c 2 ⟨n, h⟩) (iblk m c 3 ⟨n, h⟩) p = scG (m ((c : Thread nD τ).loc main_arg0)) (m ((c : Thread nD τ).loc main_arg1)) (m ((c : Thread nD τ).loc main_arg2)) (m ((c : Thread nD τ).loc main_arg3)) b (n % 16) := by
  funext q
  have ht : (n % 16) * 256 + q.val < 4096 := by have := q.isLt; omega
  have hb' : (n / 16) * 32 + p.val < 64 := by have := b.isLt; omega
  obtain rfl : b = ⟨(n / 16) * 32 + p.val, hb'⟩ := Fin.ext hb
  refine (Blocks.sc_global m c ⟨n, h⟩ p q hb' ht).trans ?_
  unfold scG
  rw [dif_pos ht]

/-- The tile's feature column d of row p at point n is row b's feature d of tile n mod 16. -/
theorem vl_link (c : Dev nD) (n : ℕ) (h : n < cfg0.N) (p : Fin 32) (d : Fin 256) (b : Fin 64)
    (hb : b.val = (n / 16) * 32 + p.val) :
    Tile.vl (iblk m c 0 ⟨n, h⟩) p d = vlG (m ((c : Thread nD τ).loc main_arg0)) b d (n % 16) := by
  funext q
  have ht : (n % 16) * 256 + q.val < 4096 := by have := q.isLt; omega
  have hb' : (n / 16) * 32 + p.val < 64 := by have := b.isLt; omega
  obtain rfl : b = ⟨(n / 16) * 32 + p.val, hb'⟩ := Fin.ext hb
  refine (Blocks.vl_global m c ⟨n, h⟩ p d q hb' ht).trans ?_
  unfold vlG
  rw [dif_pos ht]

/-- THE INVARIANT: the scratch entries of row p after point n are the online softmax state of row b = (n / 16)·32 + p
    after tile n mod 16. -/
theorem state_eq (c : Dev nD) : ∀ (n : ℕ) (h : n < cfg0.N) (p : Fin 32) (d : Fin 256) (b : Fin 64),
    b.val = (n / 16) * 32 + p.val →
    ((outsAt0 m c n h).2.2.2.2.1 (ix2 p (0 : Fin 1)), (outsAt0 m c n h).2.2.2.2.2.1 (ix2 p (0 : Fin 1)),
        (outsAt0 m c n h).2.2.2.2.2.2 (ix2 p d))
      = runTiles (scG (m ((c : Thread nD τ).loc main_arg0)) (m ((c : Thread nD τ).loc main_arg1)) (m ((c : Thread nD τ).loc main_arg2)) (m ((c : Thread nD τ).loc main_arg3)) b) (vlG (m ((c : Thread nD τ).loc main_arg0)) b d) (n % 16) := by
  intro n
  induction n with
  | zero =>
    intro h p d b hb
    have h0 : (⟨0, h⟩ : Fin cfg0.N).val % 16 = 0 := rfl
    have h1 : ¬(⟨0, h⟩ : Fin cfg0.N).val % 16 = 15 := (by decide : ¬(0 % 16 = 15))
    have e1 : (outsAt0 m c 0 h).2.2.2.2.1 = _ := Point.max_first m c ⟨0, h⟩ h0 h1
    have e2 : (outsAt0 m c 0 h).2.2.2.2.2.1 = _ := Point.den_first m c ⟨0, h⟩ h0 h1
    have e3 : (outsAt0 m c 0 h).2.2.2.2.2.2 = _ := Point.num_first m c ⟨0, h⟩ h0 h1
    rw [e1, e2, e3, tile_state, reset_state, sc_link m c 0 h p b hb, vl_link m c 0 h p d b hb]
    rfl
  | succ k ih =>
    intro h p d b hb
    by_cases h0 : (k + 1) % 16 = 0
    · have h1 : ¬(k + 1) % 16 = 15 := by omega
      have e1 : (outsAt0 m c (k + 1) h).2.2.2.2.1 = _ := Point.max_first m c ⟨k + 1, h⟩ h0 h1
      have e2 : (outsAt0 m c (k + 1) h).2.2.2.2.2.1 = _ := Point.den_first m c ⟨k + 1, h⟩ h0 h1
      have e3 : (outsAt0 m c (k + 1) h).2.2.2.2.2.2 = _ := Point.num_first m c ⟨k + 1, h⟩ h0 h1
      rw [e1, e2, e3, tile_state, reset_state, sc_link m c (k + 1) h p b hb, vl_link m c (k + 1) h p d b hb, h0]
      rfl
    · have hk : k < cfg0.N := Nat.lt_of_succ_lt h
      have e1 : (outsAt0 m c (k + 1) h).2.2.2.2.1
          = Pieces.nextM (iblk m c 0 ⟨k + 1, h⟩) (iblk m c 1 ⟨k + 1, h⟩) (iblk m c 2 ⟨k + 1, h⟩) (iblk m c 3 ⟨k + 1, h⟩) (outsAt0 m c k hk).2.2.2.2.1 := Point.max_next m c ⟨k + 1, h⟩ h0
      have e2 : (outsAt0 m c (k + 1) h).2.2.2.2.2.1
          = Pieces.nextL (iblk m c 0 ⟨k + 1, h⟩) (iblk m c 1 ⟨k + 1, h⟩) (iblk m c 2 ⟨k + 1, h⟩) (iblk m c 3 ⟨k + 1, h⟩) (outsAt0 m c k hk).2.2.2.2.1 (outsAt0 m c k hk).2.2.2.2.2.1 :=
        Point.den_next m c ⟨k + 1, h⟩ h0
      have e3 : (outsAt0 m c (k + 1) h).2.2.2.2.2.2
          = Pieces.nextA (iblk m c 0 ⟨k + 1, h⟩) (iblk m c 1 ⟨k + 1, h⟩) (iblk m c 2 ⟨k + 1, h⟩) (iblk m c 3 ⟨k + 1, h⟩) (outsAt0 m c k hk).2.2.2.2.1 (outsAt0 m c k hk).2.2.2.2.2.2 :=
        Point.num_next m c ⟨k + 1, h⟩ h0
      have hb' : b.val = (k / 16) * 32 + p.val := by omega
      have hmod : (k + 1) % 16 = k % 16 + 1 := by omega
      rw [e1, e2, e3, tile_state, ih hk p d b hb', sc_link m c (k + 1) h p b hb, vl_link m c (k + 1) h p d b hb, hmod]
      rfl

/-- Every point's scores block is the corresponding block of the score array. -/
theorem scores_block (c : Dev nD) (t : Fin cfg0.N) (p : Fin 32) (q : Fin 256)
    (hb : (t.val / 16) * 32 + p.val < 64) (ht : (t.val % 16) * 256 + q.val < 4096) :
    (outsAt0 m c t.val t.isLt).2.1 (ix2 p q)
      = logitArr (m ((c : Thread nD τ).loc main_arg0)) (m ((c : Thread nD τ).loc main_arg1)) (m ((c : Thread nD τ).loc main_arg2)) (m ((c : Thread nD τ).loc main_arg3)) (ix2 ⟨(t.val / 16) * 32 + p.val, hb⟩ ⟨(t.val % 16) * 256 + q.val, ht⟩) := by
  rw [Point.scores_at m c t]
  exact Blocks.sc_global m c t p q hb ht

/-- A row's last tile writes the context in tile form. -/
theorem context_block (c : Dev nD) (t : Fin cfg0.N) (h1 : t.val % 16 = 15) (p : Fin 32) (d : Fin 256)
    (hb : (t.val / 16) * 32 + p.val < 64) :
    (outsAt0 m c t.val t.isLt).1 (ix2 p d) = ctxTiles (m ((c : Thread nD τ).loc main_arg0)) (m ((c : Thread nD τ).loc main_arg1)) (m ((c : Thread nD τ).loc main_arg2)) (m ((c : Thread nD τ).loc main_arg3)) (ix2 ⟨(t.val / 16) * 32 + p.val, hb⟩ d) := by
  have h0 : ¬t.val % 16 = 0 := by omega
  have hs := state_eq m c t.val t.isLt p d ⟨(t.val / 16) * 32 + p.val, hb⟩ rfl
  rw [h1] at hs
  rw [Point.context_last m c t h0 h1, Tile.context_apply]
  have hl := congrArg (fun z => z.2.1) hs
  have ha := congrArg (fun z => z.2.2) hs
  dsimp only at hl ha
  rw [hl, ha]
  rfl

/-- A row's last tile writes the running maximum after the sixteenth tile. -/
theorem maxima_block (c : Dev nD) (t : Fin cfg0.N) (h1 : t.val % 16 = 15) (p : Fin 32)
    (hb : (t.val / 16) * 32 + p.val < 64) :
    (outsAt0 m c t.val t.isLt).2.2.1 (ix2 p (0 : Fin 1))
      = maxTiles (m ((c : Thread nD τ).loc main_arg0)) (m ((c : Thread nD τ).loc main_arg1)) (m ((c : Thread nD τ).loc main_arg2)) (m ((c : Thread nD τ).loc main_arg3)) (ix2 ⟨(t.val / 16) * 32 + p.val, hb⟩ (0 : Fin 1)) := by
  have h0 : ¬t.val % 16 = 0 := by omega
  have hs := state_eq m c t.val t.isLt p (0 : Fin 256) ⟨(t.val / 16) * 32 + p.val, hb⟩ rfl
  rw [h1] at hs
  rw [Point.maxOut_last m c t h0 h1]
  exact congrArg (fun z => z.1) hs

/-- A row's last tile writes the running denominator after the sixteenth tile. -/
theorem sums_block (c : Dev nD) (t : Fin cfg0.N) (h1 : t.val % 16 = 15) (p : Fin 32)
    (hb : (t.val / 16) * 32 + p.val < 64) :
    (outsAt0 m c t.val t.isLt).2.2.2.1 (ix2 p (0 : Fin 1))
      = sumTiles (m ((c : Thread nD τ).loc main_arg0)) (m ((c : Thread nD τ).loc main_arg1)) (m ((c : Thread nD τ).loc main_arg2)) (m ((c : Thread nD τ).loc main_arg3)) (ix2 ⟨(t.val / 16) * 32 + p.val, hb⟩ (0 : Fin 1)) := by
  have h0 : ¬t.val % 16 = 0 := by omega
  have hs := state_eq m c t.val t.isLt p (0 : Fin 256) ⟨(t.val / 16) * 32 + p.val, hb⟩ rfl
  rw [h1] at hs
  rw [Point.denOut_last m c t h0 h1]
  exact congrArg (fun z => z.2.1) hs

end Cert.KernelIdeal.State

end
-- ==== Proof.KernelArrays.lean ====
/-
  From what each grid point writes back to the whole output arrays.

  The region's grid has 2 × 16 points; point t has coordinates (t / 16, t % 16).  Each of its four output arrays is
  tiled by blocks: the scores [64, 4096] by blocks of 32 rows and 256 columns, block (t / 16, t % 16) written back at
  every point t; the context vectors [64, 256] by blocks of 32 rows, and the row maxima and row sums [64, 1] by blocks of
  32 rows, block (t / 16, 0) written back at the last point of each row block (t % 16 = 15).  A block's entry (p, q) is
  the array's entry (block row · 32 + p, block column · 256 + q).  So when what every writing point leaves in its block
  is the matching part of one whole-array function G, the array ends holding G: every index of the array lies in the
  block of some writing point.
-/
import proofs.«158354_j72310069395789_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Arrays

open Cert.KernelIdeal Cert.KernelIdeal.Gen Idealize.ShloMosaic Idealize.ShloMosaic.ValueIdx Idealize.ShloMosaic.TcCoe Idealize.SL.Sem

variable {F : FTy → Type} [FloatOps F] (m : (ℓ : Loc nD τ sig) → Buf (Elt F) ℓ)

/-- The printed block-index maps of the four output windows, decided once over the grid: the row block is t / 16; the
    scores' column block is t % 16, the other three have one column block. -/
theorem block_index : ∀ t : Fin cfg0.N,
    win0_5.index t (0 : Fin 2) = t.val / 16 ∧ win0_5.index t (1 : Fin 2) = t.val % 16
    ∧ win0_4.index t (0 : Fin 2) = t.val / 16 ∧ win0_4.index t (1 : Fin 2) = 0
    ∧ win0_6.index t (0 : Fin 2) = t.val / 16 ∧ win0_6.index t (1 : Fin 2) = 0
    ∧ win0_7.index t (0 : Fin 2) = t.val / 16 ∧ win0_7.index t (1 : Fin 2) = 0 :=
  (by decide +kernel : ∀ t : Fin grid0.N, _)

/-! ## The scores (window 5): written back at every point -/

/-- What point t writes back to the scores is block (t / 16, t % 16) of G. -/
theorem scores_flushed (c : Dev nD) (G : S64x4096.Idx → Elt F .f32)
    (hG : ∀ (t : Fin cfg0.N) (p : Fin 32) (q : Fin 256) (hb : (t.val / 16) * 32 + p.val < 64) (ht : (t.val % 16) * 256 + q.val < 4096),
        (outsAt0 m c t.val t.isLt).2.1 (ix2 p q) = G (ix2 ⟨(t.val / 16) * 32 + p.val, hb⟩ ⟨(t.val % 16) * 256 + q.val, ht⟩))
    (t : Fin cfg0.N) :
    (dats m 0 c).flushed 5 t = ((cfg0.win 5).blk t).view.read (Elt F) G := by
  show (cfg0.win 5).cut (grid0.coords t) ((dats m 0 c).after 5 t) = _
  rw [after0_5]
  funext y
  have hp : (y 0).val < 32 := (y 0).isLt
  have hq : (y 1).val < 256 := (y 1).isLt
  obtain ⟨e0, e1, -⟩ := block_index t
  have hN : t.val < 32 := lt_of_lt_of_eq t.isLt N_0
  have hb : (t.val / 16) * 32 + (y 0).val < 64 := by omega
  have ht : (t.val % 16) * 256 + (y 1).val < 4096 := by omega
  have hy : (cfg0.win 5).xinj (grid0.coords t) y = ix2 (⟨(y 0).val, hp⟩ : Fin 32) (⟨(y 1).val, hq⟩ : Fin 256) :=
    funext fun a => Fin.ext (by match a with | ⟨0, _⟩ => rfl | ⟨1, _⟩ => rfl)
  show (outsAt0 m c t.val t.isLt).2.1 ((cfg0.win 5).xinj (grid0.coords t) y) = G (((cfg0.win 5).blk t).view.emb y)
  rw [hy, hG t ⟨(y 0).val, hp⟩ ⟨(y 1).val, hq⟩ hb ht]
  refine congrArg G (funext fun a => Fin.ext ?_)
  match a with
  | ⟨0, _⟩ => show t.val / 16 * 32 + (y 0).val = win0_5.index t (0 : Fin 2) * 32 + 1 * (y 0).val; rw [e0]; omega
  | ⟨1, _⟩ => show t.val % 16 * 256 + (y 1).val = win0_5.index t (1 : Fin 2) * 256 + 1 * (y 1).val; rw [e1]; omega

/-- An index of the scores is in point t's block iff each coordinate is in the block's range on its axis. -/
theorem scores_mem_blk (t : Fin cfg0.N) (i : S64x4096.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v2_1).slice (win0_5.rect t)).set ↔ _
  rw [View.set_slice_whole, Rect.mem_set_unit]
  exact Iff.rfl

/-- THE SCORES after the run: G, when every point's block of them is G's. -/
theorem scores_array (c : Dev nD) (G : S64x4096.Idx → Elt F .f32)
    (hG : ∀ (t : Fin cfg0.N) (p : Fin 32) (q : Fin 256) (hb : (t.val / 16) * 32 + p.val < 64) (ht : (t.val % 16) * 256 + q.val < 4096),
        (outsAt0 m c t.val t.isLt).2.1 (ix2 p q) = G (ix2 ⟨(t.val / 16) * 32 + p.val, hb⟩ ⟨(t.val % 16) * 256 + q.val, ht⟩)) :
    (dats m 0 c).arrAt 5 cfg0.N = G :=
  (dats m 0 c).arrAt_eq_of_cover 5 G (fun t _ => scores_flushed m c G hG t) fun i => by
    have hi0 : (i 0).val < 64 := (i 0).isLt
    have hi1 : (i 1).val < 4096 := (i 1).isLt
    have hlt : (i 0).val / 32 * 16 + (i 1).val / 256 < cfg0.N := lt_of_lt_of_eq (by omega) N_0.symm
    refine ⟨⟨(i 0).val / 32 * 16 + (i 1).val / 256, hlt⟩, flush0_5 _, ?_⟩
    rw [scores_mem_blk]
    obtain ⟨e0, e1, -⟩ := block_index ⟨(i 0).val / 32 * 16 + (i 1).val / 256, hlt⟩
    intro a
    match a with
    | ⟨0, _⟩ =>
      show win0_5.index ⟨(i 0).val / 32 * 16 + (i 1).val / 256, hlt⟩ (0 : Fin 2) * 32 ≤ (i 0).val ∧ (i 0).val < win0_5.index ⟨(i 0).val / 32 * 16 + (i 1).val / 256, hlt⟩ (0 : Fin 2) * 32 + 32
      rw [e0]; show ((i 0).val / 32 * 16 + (i 1).val / 256) / 16 * 32 ≤ (i 0).val ∧ (i 0).val < ((i 0).val / 32 * 16 + (i 1).val / 256) / 16 * 32 + 32
      omega
    | ⟨1, _⟩ =>
      show win0_5.index ⟨(i 0).val / 32 * 16 + (i 1).val / 256, hlt⟩ (1 : Fin 2) * 256 ≤ (i 1).val ∧ (i 1).val < win0_5.index ⟨(i 0).val / 32 * 16 + (i 1).val / 256, hlt⟩ (1 : Fin 2) * 256 + 256
      rw [e1]; show ((i 0).val / 32 * 16 + (i 1).val / 256) % 16 * 256 ≤ (i 1).val ∧ (i 1).val < ((i 0).val / 32 * 16 + (i 1).val / 256) % 16 * 256 + 256
      omega

/-! ## The context vectors (window 4): written back at the last point of each row block -/

/-- What a writing point t (t % 16 = 15) writes back to the context vectors is block (t / 16, 0) of G. -/
theorem context_flushed (c : Dev nD) (G : S64x256.Idx → Elt F .f32)
    (hG : ∀ (t : Fin cfg0.N), t.val % 16 = 15 → ∀ (p : Fin 32) (d : Fin 256) (hb : (t.val / 16) * 32 + p.val < 64),
        (outsAt0 m c t.val t.isLt).1 (ix2 p d) = G (ix2 ⟨(t.val / 16) * 32 + p.val, hb⟩ d))
    (t : Fin cfg0.N) (hf : (cfg0.win 4).flush t = true) :
    (dats m 0 c).flushed 4 t = ((cfg0.win 4).blk t).view.read (Elt F) G := by
  have h15 : t.val % 16 = 15 := (flush0_4 t).mp hf
  show (cfg0.win 4).cut (grid0.coords t) ((dats m 0 c).after 4 t) = _
  rw [after0_4]
  funext y
  have hp : (y 0).val < 32 := (y 0).isLt
  have hq : (y 1).val < 256 := (y 1).isLt
  obtain ⟨-, -, e0, e1, -⟩ := block_index t
  have hN : t.val < 32 := lt_of_lt_of_eq t.isLt N_0
  have hb : (t.val / 16) * 32 + (y 0).val < 64 := by omega
  have hy : (cfg0.win 4).xinj (grid0.coords t) y = ix2 (⟨(y 0).val, hp⟩ : Fin 32) (⟨(y 1).val, hq⟩ : Fin 256) :=
    funext fun a => Fin.ext (by match a with | ⟨0, _⟩ => rfl | ⟨1, _⟩ => rfl)
  show (outsAt0 m c t.val t.isLt).1 ((cfg0.win 4).xinj (grid0.coords t) y) = G (((cfg0.win 4).blk t).view.emb y)
  rw [hy, hG t h15 ⟨(y 0).val, hp⟩ ⟨(y 1).val, hq⟩ hb]
  refine congrArg G (funext fun a => Fin.ext ?_)
  match a with
  | ⟨0, _⟩ => show t.val / 16 * 32 + (y 0).val = win0_4.index t (0 : Fin 2) * 32 + 1 * (y 0).val; rw [e0]; omega
  | ⟨1, _⟩ => show (y 1).val = win0_4.index t (1 : Fin 2) * 256 + 1 * (y 1).val; rw [e1]; omega

/-- An index of the context vectors is in point t's block iff each coordinate is in the block's range on its axis. -/
theorem context_mem_blk (t : Fin cfg0.N) (i : S64x256.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v2_0).slice (win0_4.rect t)).set ↔ _
  rw [View.set_slice_whole, Rect.mem_set_unit]
  exact Iff.rfl

/-- THE CONTEXT VECTORS after the run: G, when every writing point's block of them is G's. -/
theorem context_array (c : Dev nD) (G : S64x256.Idx → Elt F .f32)
    (hG : ∀ (t : Fin cfg0.N), t.val % 16 = 15 → ∀ (p : Fin 32) (d : Fin 256) (hb : (t.val / 16) * 32 + p.val < 64),
        (outsAt0 m c t.val t.isLt).1 (ix2 p d) = G (ix2 ⟨(t.val / 16) * 32 + p.val, hb⟩ d)) :
    (dats m 0 c).arrAt 4 cfg0.N = G :=
  (dats m 0 c).arrAt_eq_of_cover 4 G (fun t hf => context_flushed m c G hG t hf) fun i => by
    have hi0 : (i 0).val < 64 := (i 0).isLt
    have hi1 : (i 1).val < 256 := (i 1).isLt
    have hlt : (i 0).val / 32 * 16 + 15 < cfg0.N := lt_of_lt_of_eq (by omega) N_0.symm
    refine ⟨⟨(i 0).val / 32 * 16 + 15, hlt⟩, (flush0_4 _).mpr (by show ((i 0).val / 32 * 16 + 15) % 16 = 15; omega), ?_⟩
    rw [context_mem_blk]
    obtain ⟨-, -, e0, e1, -⟩ := block_index ⟨(i 0).val / 32 * 16 + 15, hlt⟩
    intro a
    match a with
    | ⟨0, _⟩ =>
      show win0_4.index ⟨(i 0).val / 32 * 16 + 15, hlt⟩ (0 : Fin 2) * 32 ≤ (i 0).val ∧ (i 0).val < win0_4.index ⟨(i 0).val / 32 * 16 + 15, hlt⟩ (0 : Fin 2) * 32 + 32
      rw [e0]; show ((i 0).val / 32 * 16 + 15) / 16 * 32 ≤ (i 0).val ∧ (i 0).val < ((i 0).val / 32 * 16 + 15) / 16 * 32 + 32
      omega
    | ⟨1, _⟩ =>
      show win0_4.index ⟨(i 0).val / 32 * 16 + 15, hlt⟩ (1 : Fin 2) * 256 ≤ (i 1).val ∧ (i 1).val < win0_4.index ⟨(i 0).val / 32 * 16 + 15, hlt⟩ (1 : Fin 2) * 256 + 256
      rw [e1]; omega

/-! ## The row maxima (window 6) and the row sums (window 7): columns, written back at the last point of each row block -/

/-- What a writing point t writes back to the row maxima is block (t / 16, 0) of G. -/
theorem maxima_flushed (c : Dev nD) (G : S64x1.Idx → Elt F .f32)
    (hG : ∀ (t : Fin cfg0.N), t.val % 16 = 15 → ∀ (p : Fin 32) (hb : (t.val / 16) * 32 + p.val < 64),
        (outsAt0 m c t.val t.isLt).2.2.1 (ix2 p (0 : Fin 1)) = G (ix2 ⟨(t.val / 16) * 32 + p.val, hb⟩ (0 : Fin 1)))
    (t : Fin cfg0.N) (hf : (cfg0.win 6).flush t = true) :
    (dats m 0 c).flushed 6 t = ((cfg0.win 6).blk t).view.read (Elt F) G := by
  have h15 : t.val % 16 = 15 := (flush0_6 t).mp hf
  show (cfg0.win 6).cut (grid0.coords t) ((dats m 0 c).after 6 t) = _
  rw [after0_6]
  funext y
  have hp : (y 0).val < 32 := (y 0).isLt
  have hq : (y 1).val < 1 := (y 1).isLt
  obtain ⟨-, -, -, -, e0, e1, -⟩ := block_index t
  have hN : t.val < 32 := lt_of_lt_of_eq t.isLt N_0
  have hb : (t.val / 16) * 32 + (y 0).val < 64 := by omega
  have hy : (cfg0.win 6).xinj (grid0.coords t) y = ix2 (⟨(y 0).val, hp⟩ : Fin 32) (0 : Fin 1) :=
    funext fun a => Fin.ext (by match a with | ⟨0, _⟩ => rfl | ⟨1, _⟩ => (show (y 1).val = 0; omega))
  show (outsAt0 m c t.val t.isLt).2.2.1 ((cfg0.win 6).xinj (grid0.coords t) y) = G (((cfg0.win 6).blk t).view.emb y)
  rw [hy, hG t h15 ⟨(y 0).val, hp⟩ hb]
  refine congrArg G (funext fun a => Fin.ext ?_)
  match a with
  | ⟨0, _⟩ => show t.val / 16 * 32 + (y 0).val = win0_6.index t (0 : Fin 2) * 32 + 1 * (y 0).val; rw [e0]; omega
  | ⟨1, _⟩ => show 0 = win0_6.index t (1 : Fin 2) * 1 + 1 * (y 1).val; rw [e1]; omega

/-- An index of the row maxima is in point t's block iff each coordinate is in the block's range on its axis. -/
theorem maxima_mem_blk (t : Fin cfg0.N) (i : S64x1.Idx) :
    i ∈ ((cfg0.win 6).blk t).view.set ↔ ∀ a : Fin 2, win0_6.index t a * S32x1.size a ≤ (i a).val ∧ (i a).val < win0_6.index t a * S32x1.size a + S32x1.size a := by
  show i ∈ ((View.whole main_v2_2).slice (win0_6.rect t)).set ↔ _
  rw [View.set_slice_whole, Rect.mem_set_unit]
  exact Iff.rfl

/-- THE ROW MAXIMA after the run: G, when every writing point's block of them is G's. -/
theorem maxima_array (c : Dev nD) (G : S64x1.Idx → Elt F .f32)
    (hG : ∀ (t : Fin cfg0.N), t.val % 16 = 15 → ∀ (p : Fin 32) (hb : (t.val / 16) * 32 + p.val < 64),
        (outsAt0 m c t.val t.isLt).2.2.1 (ix2 p (0 : Fin 1)) = G (ix2 ⟨(t.val / 16) * 32 + p.val, hb⟩ (0 : Fin 1))) :
    (dats m 0 c).arrAt 6 cfg0.N = G :=
  (dats m 0 c).arrAt_eq_of_cover 6 G (fun t hf => maxima_flushed m c G hG t hf) fun i => by
    have hi0 : (i 0).val < 64 := (i 0).isLt
    have hi1 : (i 1).val < 1 := (i 1).isLt
    have hlt : (i 0).val / 32 * 16 + 15 < cfg0.N := lt_of_lt_of_eq (by omega) N_0.symm
    refine ⟨⟨(i 0).val / 32 * 16 + 15, hlt⟩, (flush0_6 _).mpr (by show ((i 0).val / 32 * 16 + 15) % 16 = 15; omega), ?_⟩
    rw [maxima_mem_blk]
    obtain ⟨-, -, -, -, e0, e1, -⟩ := block_index ⟨(i 0).val / 32 * 16 + 15, hlt⟩
    intro a
    match a with
    | ⟨0, _⟩ =>
      show win0_6.index ⟨(i 0).val / 32 * 16 + 15, hlt⟩ (0 : Fin 2) * 32 ≤ (i 0).val ∧ (i 0).val < win0_6.index ⟨(i 0).val / 32 * 16 + 15, hlt⟩ (0 : Fin 2) * 32 + 32
      rw [e0]; show ((i 0).val / 32 * 16 + 15) / 16 * 32 ≤ (i 0).val ∧ (i 0).val < ((i 0).val / 32 * 16 + 15) / 16 * 32 + 32
      omega
    | ⟨1, _⟩ =>
      show win0_6.index ⟨(i 0).val / 32 * 16 + 15, hlt⟩ (1 : Fin 2) * 1 ≤ (i 1).val ∧ (i 1).val < win0_6.index ⟨(i 0).val / 32 * 16 + 15, hlt⟩ (1 : Fin 2) * 1 + 1
      rw [e1]; omega

/-- What a writing point t writes back to the row sums is block (t / 16, 0) of G. -/
theorem sums_flushed (c : Dev nD) (G : S64x1.Idx → Elt F .f32)
    (hG : ∀ (t : Fin cfg0.N), t.val % 16 = 15 → ∀ (p : Fin 32) (hb : (t.val / 16) * 32 + p.val < 64),
        (outsAt0 m c t.val t.isLt).2.2.2.1 (ix2 p (0 : Fin 1)) = G (ix2 ⟨(t.val / 16) * 32 + p.val, hb⟩ (0 : Fin 1)))
    (t : Fin cfg0.N) (hf : (cfg0.win 7).flush t = true) :
    (dats m 0 c).flushed 7 t = ((cfg0.win 7).blk t).view.read (Elt F) G := by
  have h15 : t.val % 16 = 15 := (flush0_7 t).mp hf
  show (cfg0.win 7).cut (grid0.coords t) ((dats m 0 c).after 7 t) = _
  rw [after0_7]
  funext y
  have hp : (y 0).val < 32 := (y 0).isLt
  have hq : (y 1).val < 1 := (y 1).isLt
  obtain ⟨-, -, -, -, -, -, e0, e1⟩ := block_index t
  have hN : t.val < 32 := lt_of_lt_of_eq t.isLt N_0
  have hb : (t.val / 16) * 32 + (y 0).val < 64 := by omega
  have hy : (cfg0.win 7).xinj (grid0.coords t) y = ix2 (⟨(y 0).val, hp⟩ : Fin 32) (0 : Fin 1) :=
    funext fun a => Fin.ext (by match a with | ⟨0, _⟩ => rfl | ⟨1, _⟩ => (show (y 1).val = 0; omega))
  show (outsAt0 m c t.val t.isLt).2.2.2.1 ((cfg0.win 7).xinj (grid0.coords t) y) = G (((cfg0.win 7).blk t).view.emb y)
  rw [hy, hG t h15 ⟨(y 0).val, hp⟩ hb]
  refine congrArg G (funext fun a => Fin.ext ?_)
  match a with
  | ⟨0, _⟩ => show t.val / 16 * 32 + (y 0).val = win0_7.index t (0 : Fin 2) * 32 + 1 * (y 0).val; rw [e0]; omega
  | ⟨1, _⟩ => show 0 = win0_7.index t (1 : Fin 2) * 1 + 1 * (y 1).val; rw [e1]; omega

/-- An index of the row sums is in point t's block iff each coordinate is in the block's range on its axis. -/
theorem sums_mem_blk (t : Fin cfg0.N) (i : S64x1.Idx) :
    i ∈ ((cfg0.win 7).blk t).view.set ↔ ∀ a : Fin 2, win0_7.index t a * S32x1.size a ≤ (i a).val ∧ (i a).val < win0_7.index t a * S32x1.size a + S32x1.size a := by
  show i ∈ ((View.whole main_v2_3).slice (win0_7.rect t)).set ↔ _
  rw [View.set_slice_whole, Rect.mem_set_unit]
  exact Iff.rfl

/-- THE ROW SUMS after the run: G, when every writing point's block of them is G's. -/
theorem sums_array (c : Dev nD) (G : S64x1.Idx → Elt F .f32)
    (hG : ∀ (t : Fin cfg0.N), t.val % 16 = 15 → ∀ (p : Fin 32) (hb : (t.val / 16) * 32 + p.val < 64),
        (outsAt0 m c t.val t.isLt).2.2.2.1 (ix2 p (0 : Fin 1)) = G (ix2 ⟨(t.val / 16) * 32 + p.val, hb⟩ (0 : Fin 1))) :
    (dats m 0 c).arrAt 7 cfg0.N = G :=
  (dats m 0 c).arrAt_eq_of_cover 7 G (fun t hf => sums_flushed m c G hG t hf) fun i => by
    have hi0 : (i 0).val < 64 := (i 0).isLt
    have hi1 : (i 1).val < 1 := (i 1).isLt
    have hlt : (i 0).val / 32 * 16 + 15 < cfg0.N := lt_of_lt_of_eq (by omega) N_0.symm
    refine ⟨⟨(i 0).val / 32 * 16 + 15, hlt⟩, (flush0_7 _).mpr (by show ((i 0).val / 32 * 16 + 15) % 16 = 15; omega), ?_⟩
    rw [sums_mem_blk]
    obtain ⟨-, -, -, -, -, -, e0, e1⟩ := block_index ⟨(i 0).val / 32 * 16 + 15, hlt⟩
    intro a
    match a with
    | ⟨0, _⟩ =>
      show win0_7.index ⟨(i 0).val / 32 * 16 + 15, hlt⟩ (0 : Fin 2) * 32 ≤ (i 0).val ∧ (i 0).val < win0_7.index ⟨(i 0).val / 32 * 16 + 15, hlt⟩ (0 : Fin 2) * 32 + 32
      rw [e0]; show ((i 0).val / 32 * 16 + 15) / 16 * 32 ≤ (i 0).val ∧ (i 0).val < ((i 0).val / 32 * 16 + 15) / 16 * 32 + 32
      omega
    | ⟨1, _⟩ =>
      show win0_7.index ⟨(i 0).val / 32 * 16 + 15, hlt⟩ (1 : Fin 2) * 1 ≤ (i 1).val ∧ (i 1).val < win0_7.index ⟨(i 0).val / 32 * 16 + 15, hlt⟩ (1 : Fin 2) * 1 + 1
      rw [e1]; omega

end Cert.KernelIdeal.Arrays

end
-- ==== Proof.KernelTail.lean ====
/-
  The kernel program's run with its two results named.

  The program is one pipelined region followed by six host operations.  The region leaves four arrays: the context
  vectors, the scores ("logits"), the rows' maxima and the rows' sums of exponentials.  The host operations after it
  turn the last three into the attention weights: the maxima are spread along the time axis and subtracted from the
  scores, the differences are exponentiated, the sums are spread along the time axis and divide the exponentials, and
  the quotient matrix gets a trailing unit axis.  Read at an index (b, t, ·) this is exp (score[b,t] − max[b]) / sum[b].
  So the program's first result is the region's first output array as the region left it, and its second result is
  that function of the region's other three output arrays; the four arguments are unchanged.
-/
import proofs.«158354_j72310069395789_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Tail

open Cert.KernelIdeal Cert.KernelIdeal.Gen Idealize.ShloMosaic Idealize.ShloMosaic.ValueIdx Idealize.ShloMosaic.TcCoe Idealize.SL.Sem

/-- Attention weights from the scores, the row maxima and the row sums. -/
def attnOf (LG : S64x4096.Idx → EReal) (MX LS : S64x1.Idx → EReal) : S64x4096x1.Idx → EReal :=
  fun i => Ideal.div (Ideal.exp (LG (ix2 (i 0) (i 1)) - MX (ix2 (i 0) (0 : Fin 1)))) (LS (ix2 (i 0) (0 : Fin 1)))

/-- The six operations after the region, composed, as one term of the three arrays they read. -/
def tail (LG : S64x4096.Idx → EReal) (MX LS : S64x1.Idx → EReal) : S64x4096x1.Idx → EReal :=
  broadcastInDim S64x4096x1 ![0, 1] bcast_S64x4096_S64x4096x1_0_1
    (Host.divf (F := Ideal) (φ := .f32)
      (Host.exp (F := Ideal) (φ := .f32)
        (subf (F := Ideal) (φ := .f32) LG (broadcastInDim S64x4096 ![0, 1] bcast_S64x1_S64x4096_0_1 MX)))
      (broadcastInDim S64x4096 ![0, 1] bcast_S64x1_S64x4096_0_1 LS))

/-- A column spread along the time axis reads, at (p, q), the column's entry of row p. -/
theorem spread_apply (v : S64x1.Idx → EReal) (p : Fin 64) (q : Fin 4096) :
    broadcastInDim S64x4096 ![0, 1] bcast_S64x1_S64x4096_0_1 v (ix2 p q) = v (ix2 p (0 : Fin 1)) :=
  broadcastInDim_apply _ bcast_S64x1_S64x4096_0_1 v (ix2 p q) (ix2 p (0 : Fin 1)) (fun a => match a with
    | ⟨0, _⟩ => by show p.val = if (64 : Nat) = 1 then 0 else p.val; rw [if_neg (by decide)]
    | ⟨1, _⟩ => by show 0 = if (1 : Nat) = 1 then 0 else q.val; rw [if_pos rfl])

/-- The composed tail at explicit coordinates. -/
theorem tail_apply (LG : S64x4096.Idx → EReal) (MX LS : S64x1.Idx → EReal) (b : Fin 64) (t : Fin 4096) (j : Fin 1) :
    tail LG MX LS (ix3 b t j) = Ideal.div (Ideal.exp (LG (ix2 b t) - MX (ix2 b (0 : Fin 1)))) (LS (ix2 b (0 : Fin 1))) := by
  unfold tail
  rw [broadcastInDim_apply _ bcast_S64x4096_S64x4096x1_0_1 _ (ix3 b t j) (ix2 b t) (fun a => match a with
    | ⟨0, _⟩ => by show b.val = if (64 : Nat) = 1 then 0 else b.val; rw [if_neg (by decide)]
    | ⟨1, _⟩ => by show t.val = if (4096 : Nat) = 1 then 0 else t.val; rw [if_neg (by decide)])]
  show Ideal.div (Ideal.exp (LG (ix2 b t) - broadcastInDim S64x4096 ![0, 1] bcast_S64x1_S64x4096_0_1 MX (ix2 b t)))
      (broadcastInDim S64x4096 ![0, 1] bcast_S64x1_S64x4096_0_1 LS (ix2 b t)) = _
  rw [spread_apply, spread_apply]

/-- The composed tail, index by index. -/
theorem tail_eq_attnOf (LG : S64x4096.Idx → EReal) (MX LS : S64x1.Idx → EReal) : tail LG MX LS = attnOf LG MX LS := by
  funext i
  obtain ⟨b, t, j, rfl⟩ : ∃ (b : Fin 64) (t : Fin 4096) (j : Fin 1), i = ix3 b t j := ⟨i 0, i 1, i 2, eq_ix3 i⟩
  exact tail_apply LG MX LS b t j

variable (m : (ℓ : Loc nD τ sig) → Buf (Elt Ideal) ℓ) (ρ : Dev nD → PrngReg)

/-- What the operations after the region leave in the second result: the attention weights of the region's scores,
    row maxima and row sums. -/
theorem tail_result (c : Dev nD) :
    Pipeline.afterTail₀ cfgs (dats m) 0 (V0 m) [hostOps1] c main_v8
      = attnOf ((dats m 0 c).arrAt 5 cfg0.N) ((dats m 0 c).arrAt 6 cfg0.N) ((dats m 0 c).arrAt 7 cfg0.N) := by
  rw [← tail_eq_attnOf]
  unfold Pipeline.afterTail₀
  show StableHlo.after hostOps1 _ (Proc.devRef .tc main_v8) = _
  after_results
  have e5 : Pipeline.withArrays (cfgs 0).spec c (V0 m c) (fun w => (dats m 0 c).arrAt w (cfgs 0).N) (Proc.devRef .tc main_v2_1)
      = (dats m 0 c).arrAt 5 cfg0.N := Pipeline.withArrays_arr spec0 launch0.win.arr_inj c _ _ 5
  have e6 : Pipeline.withArrays (cfgs 0).spec c (V0 m c) (fun w => (dats m 0 c).arrAt w (cfgs 0).N) (Proc.devRef .tc main_v2_2)
      = (dats m 0 c).arrAt 6 cfg0.N := Pipeline.withArrays_arr spec0 launch0.win.arr_inj c _ _ 6
  have e7 : Pipeline.withArrays (cfgs 0).spec c (V0 m c) (fun w => (dats m 0 c).arrAt w (cfgs 0).N) (Proc.devRef .tc main_v2_3)
      = (dats m 0 c).arrAt 7 cfg0.N := Pipeline.withArrays_arr spec0 launch0.win.arr_inj c _ _ 7
  rw [e5, e6, e7]
  rfl

/-- The program's run with its results named: from any memory with zero counters every weakly fair execution
    terminates with the first result at the region's first output array, the second at the attention weights of the
    region's other three output arrays, and the four arguments unchanged. -/
theorem run_named : θ_run defs (onTc (τ := τ) (main (F := Ideal))) ⟨m, fun _ => 0, ρ⟩ fun r => ∀ c : Dev nD,
      r.2.mem ((c : Thread nD τ).loc main_v2_0) = (dats m 0 c).arrAt 4 cfg0.N
      ∧ r.2.mem ((c : Thread nD τ).loc main_v8)
          = attnOf ((dats m 0 c).arrAt 5 cfg0.N) ((dats m 0 c).arrAt 6 cfg0.N) ((dats m 0 c).arrAt 7 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h c).1 4,
        ((h c).2 main_v8 (Pipeline.mem_restRefs_of main_v8 (by decide) (by decide))).trans (tail_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Tail

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.TileMath.lean ====
/-
  Sixteen tiles of 256 time steps: the online softmax state after all of them, and what it computes.

  The 4096 scores of a row are visited in 16 tiles of 256; tile j holds the time steps j·256 … j·256 + 255.  After
  tile j the state is (m, D_j m, N_j m) for some real shift m, where D_j and N_j are the shifted exponential sums
  over the first j + 1 tiles.  After the last tile these are the sums over all 4096 time steps (a sum over
  16 · 256 indices read block by block), so numerator / denominator is the softmax-weighted sum, and
  exp (score − running maximum) / denominator is the softmax weight: neither depends on which real shift the state
  carries.
-/
import proofs.«158354_j72310069395789_2_alg».proof.Proof.TileRun
import proofs.«158354_j72310069395789_2_alg».proof.Proof.Spec
import proofs.«158354_j72310069395789_2_alg».proof.Proof.LibSumBlocks

noncomputable section

open scoped BigOperators

namespace AttnPool

open Idealize.ShloMosaic OnlineSoftmax

/-! ### Real witnesses -/

/-- A family of extended reals all of whose entries are real is the coercion of a real family. -/
theorem exists_real_fun {ι : Type*} (f : ι → EReal) (hf : ∀ i, ∃ r : ℝ, f i = (r : EReal)) :
    ∃ F : ι → ℝ, f = fun i => ((F i : ℝ) : EReal) := by
  choose F hF using hf
  exact ⟨F, funext hF⟩

/-! ### The run depends only on the tiles visited, and its first two components not on the values -/

/-- The state after tiles 0 … j depends only on those tiles. -/
theorem runTiles_congr {sc sc' vl vl' : ℕ → Fin 256 → EReal} (j : ℕ)
    (hs : ∀ i, i ≤ j → sc i = sc' i) (hv : ∀ i, i ≤ j → vl i = vl' i) :
    runTiles sc vl j = runTiles sc' vl' j := by
  induction j with
  | zero => rw [runTiles_zero, runTiles_zero, hs 0 le_rfl, hv 0 le_rfl]
  | succ j ih =>
    rw [runTiles_succ, runTiles_succ,
      ih (fun i hi => hs i (Nat.le_succ_of_le hi)) (fun i hi => hv i (Nat.le_succ_of_le hi)),
      hs (j + 1) le_rfl, hv (j + 1) le_rfl]

/-- The new maximum depends only on the old maximum and the scores. -/
theorem step_max_indep (p p' : EReal × EReal × EReal) (s v v' : Fin 256 → EReal) (h1 : p.1 = p'.1) :
    (step p s v).1 = (step p' s v').1 := by
  show max p.1 _ = max p'.1 _
  rw [h1]

/-- The new denominator depends only on the old maximum, the old denominator and the scores. -/
theorem step_den_indep (p p' : EReal × EReal × EReal) (s v v' : Fin 256 → EReal) (h1 : p.1 = p'.1)
    (h2 : p.2.1 = p'.2.1) : (step p s v).2.1 = (step p' s v').2.1 := by
  show Ideal.exp (p.1 - max p.1 _) * p.2.1 + _ = Ideal.exp (p'.1 - max p'.1 _) * p'.2.1 + _
  rw [h1, h2]

/-- The running maximum and the running denominator do not depend on the values. -/
theorem runTiles_indep (sc vl vl' : ℕ → Fin 256 → EReal) (j : ℕ) :
    (runTiles sc vl j).1 = (runTiles sc vl' j).1 ∧ (runTiles sc vl j).2.1 = (runTiles sc vl' j).2.1 := by
  induction j with
  | zero =>
    rw [runTiles_zero, runTiles_zero]
    exact ⟨step_max_indep _ _ _ _ _ rfl, step_den_indep _ _ _ _ _ rfl rfl⟩
  | succ j ih =>
    rw [runTiles_succ, runTiles_succ]
    exact ⟨step_max_indep _ _ _ _ _ ih.1, step_den_indep _ _ _ _ _ ih.1 ih.2⟩

/-! ### The sums over the first tiles -/

/-- The denominator sum of tiles 0 … j at shift m. -/
def tilesDen (Sc : ℕ → Fin 256 → ℝ) (j : ℕ) (m : ℝ) : ℝ := ∑ i ∈ Finset.range (j + 1), den (Sc i) m

/-- The numerator sum of tiles 0 … j at shift m. -/
def tilesNum (Sc Vl : ℕ → Fin 256 → ℝ) (j : ℕ) (m : ℝ) : ℝ :=
  ∑ i ∈ Finset.range (j + 1), num (Sc i) (Vl i) m

theorem tilesDen_rescales (Sc : ℕ → Fin 256 → ℝ) (j : ℕ) : Rescales (tilesDen Sc j) := by
  intro m m'
  unfold tilesDen
  rw [Finset.mul_sum]
  exact Finset.sum_congr rfl fun i _ => den_rescales (Sc i) m m'

theorem tilesNum_rescales (Sc Vl : ℕ → Fin 256 → ℝ) (j : ℕ) : Rescales (tilesNum Sc Vl j) := by
  intro m m'
  unfold tilesNum
  rw [Finset.mul_sum]
  exact Finset.sum_congr rfl fun i _ => num_rescales (Sc i) (Vl i) m m'

theorem tilesDen_zero (Sc : ℕ → Fin 256 → ℝ) : tilesDen Sc 0 = den (Sc 0) := by
  funext m
  unfold tilesDen
  rw [Finset.sum_range_one]

theorem tilesNum_zero (Sc Vl : ℕ → Fin 256 → ℝ) : tilesNum Sc Vl 0 = num (Sc 0) (Vl 0) := by
  funext m
  unfold tilesNum
  rw [Finset.sum_range_one]

theorem tilesDen_succ (Sc : ℕ → Fin 256 → ℝ) (j : ℕ) :
    tilesDen Sc (j + 1) = tilesDen Sc j + den (Sc (j + 1)) := by
  funext m
  rw [Pi.add_apply]
  unfold tilesDen
  exact Finset.sum_range_succ _ _

theorem tilesNum_succ (Sc Vl : ℕ → Fin 256 → ℝ) (j : ℕ) :
    tilesNum Sc Vl (j + 1) = tilesNum Sc Vl j + num (Sc (j + 1)) (Vl (j + 1)) := by
  funext m
  rw [Pi.add_apply]
  unfold tilesNum
  exact Finset.sum_range_succ _ _

/-- After tiles 0 … j of real scores and values the state is (m, D_j m, N_j m) for some real m. -/
theorem runTiles_tracks (Sc Vl : ℕ → Fin 256 → ℝ) (j : ℕ) :
    Tracks (tilesDen Sc j) (tilesNum Sc Vl j)
      (runTiles (fun i k => ((Sc i k : ℝ) : EReal)) (fun i k => ((Vl i k : ℝ) : EReal)) j) := by
  induction j with
  | zero =>
    rw [runTiles_zero, tilesDen_zero, tilesNum_zero]
    exact tracks_init (by norm_num) (Sc 0) (Vl 0)
  | succ j ih =>
    rw [runTiles_succ, tilesDen_succ, tilesNum_succ]
    exact ih.step (by norm_num) (tilesDen_rescales Sc j) (tilesNum_rescales Sc Vl j) (Sc (j + 1)) (Vl (j + 1))

/-! ### The tiles of a family over 4096 time steps -/

/-- Entry k of tile j of a family over 4096 time steps: time step j·256 + k (0 past the end). -/
def tileOf (S : Fin 4096 → ℝ) (j : ℕ) (k : Fin 256) : ℝ :=
  if h : j * 256 + k.val < 4096 then S ⟨j * 256 + k.val, h⟩ else 0

theorem tileOf_eq (S : Fin 4096 → ℝ) (a : Fin 16) (k : Fin 256) :
    tileOf S a.val k = S ⟨a.val * 256 + k.val, SumBlocks.idx_lt a k⟩ := by
  unfold tileOf
  exact dif_pos (SumBlocks.idx_lt a k)

/-- Tiles of extended reals that read a coerced real family are the coerced tiles of the family. -/
theorem tile_coe (S : Fin 4096 → ℝ) (sc : ℕ → Fin 256 → EReal)
    (hsc : ∀ (j : ℕ) (k : Fin 256) (h : j * 256 + k.val < 4096),
      sc j k = ((S ⟨j * 256 + k.val, h⟩ : ℝ) : EReal))
    (i : ℕ) (hi : i ≤ 15) : sc i = fun k => ((tileOf S i k : ℝ) : EReal) := by
  funext k
  have h : i * 256 + k.val < 4096 := by
    have := k.isLt
    omega
  rw [hsc i k h]
  unfold tileOf
  rw [dif_pos h]

/-- The denominator sums of the 16 tiles add up to the denominator sum over all 4096 time steps. -/
theorem tilesDen_tileOf (S : Fin 4096 → ℝ) (m : ℝ) : tilesDen (tileOf S) 15 m = den S m := by
  show (∑ i ∈ Finset.range 16, den (tileOf S i) m) = den S m
  unfold den
  rw [Finset.sum_range (fun i => ∑ k : Fin 256, Real.exp (tileOf S i k - m)),
    SumBlocks.sum_blocks (A := 16) (B := 256) (fun t : Fin 4096 => Real.exp (S t - m))]
  exact Finset.sum_congr rfl fun a _ => Finset.sum_congr rfl fun k _ => by rw [tileOf_eq]

/-- The numerator sums of the 16 tiles add up to the numerator sum over all 4096 time steps. -/
theorem tilesNum_tileOf (S V : Fin 4096 → ℝ) (m : ℝ) :
    tilesNum (tileOf S) (tileOf V) 15 m = num S V m := by
  show (∑ i ∈ Finset.range 16, num (tileOf S i) (tileOf V i) m) = num S V m
  unfold num
  rw [Finset.sum_range (fun i => ∑ k : Fin 256, Real.exp (tileOf S i k - m) * tileOf V i k),
    SumBlocks.sum_blocks (A := 16) (B := 256) (fun t : Fin 4096 => Real.exp (S t - m) * V t)]
  exact Finset.sum_congr rfl fun a _ => Finset.sum_congr rfl fun k _ => by rw [tileOf_eq, tileOf_eq]

/-- After all 16 tiles the state is (m, D m, N m) for the sums D, N over the 16 tiles and some real m. -/
theorem tiles_tracks (S V : Fin 4096 → ℝ) (sc vl : ℕ → Fin 256 → EReal)
    (hsc : ∀ (j : ℕ) (k : Fin 256) (h : j * 256 + k.val < 4096),
      sc j k = ((S ⟨j * 256 + k.val, h⟩ : ℝ) : EReal))
    (hvl : ∀ (j : ℕ) (k : Fin 256) (h : j * 256 + k.val < 4096),
      vl j k = ((V ⟨j * 256 + k.val, h⟩ : ℝ) : EReal)) :
    Tracks (tilesDen (tileOf S) 15) (tilesNum (tileOf S) (tileOf V) 15) (runTiles sc vl 15) := by
  rw [runTiles_congr (sc' := fun i k => ((tileOf S i k : ℝ) : EReal))
    (vl' := fun i k => ((tileOf V i k : ℝ) : EReal)) 15
    (fun i hi => tile_coe S sc hsc i hi) (fun i hi => tile_coe V vl hvl i hi)]
  exact runTiles_tracks (tileOf S) (tileOf V) 15

/-! ### What the final state computes -/

/-- The softmax weight exp (S t − m) / ∑ exp (S t' − m) is the same at every real shift m. -/
theorem weight_shift (S : Fin 4096 → ℝ) (t : Fin 4096) (m g : ℝ) :
    Ideal.div (Ideal.exp (((S t : ℝ) : EReal) - (m : EReal))) ((den S m : ℝ) : EReal)
      = Ideal.div (Ideal.exp (((S t : ℝ) : EReal) - (g : EReal))) ((den S g : ℝ) : EReal) := by
  rw [Ideal.div_coe (den_pos S m).ne', Ideal.div_coe (den_pos S g).ne', ← EReal.coe_sub, ← EReal.coe_sub,
    Ideal.exp_coe, Ideal.exp_coe, ← EReal.coe_mul, ← EReal.coe_mul]
  congr 1
  rw [← exp_shift (S t) g m, ← den_rescales S g m, mul_one_div, mul_one_div,
    mul_div_mul_left _ _ (Real.exp_pos _).ne']

/-- The sum of the exponentials at a real shift is the coerced real denominator sum. -/
theorem sum_exp_coe (S : Fin 4096 → ℝ) (g : ℝ) :
    (∑ t' : Fin 4096, Ideal.exp (((S t' : ℝ) : EReal) - (g : EReal))) = ((den S g : ℝ) : EReal) := by
  unfold den
  simp only [← EReal.coe_sub, Ideal.exp_coe, ← coe_sum]

/-- Numerator · (1 / denominator) after the 16 tiles is the softmax-weighted sum of the values. -/
theorem tiles_ctx (s v : Fin 4096 → EReal) (hs : ∀ t, ∃ r : ℝ, s t = (r : EReal))
    (hv : ∀ t, ∃ r : ℝ, v t = (r : EReal)) (sc vl : ℕ → Fin 256 → EReal)
    (hsc : ∀ (j : ℕ) (k : Fin 256) (h : j * 256 + k.val < 4096), sc j k = s ⟨j * 256 + k.val, h⟩)
    (hvl : ∀ (j : ℕ) (k : Fin 256) (h : j * 256 + k.val < 4096), vl j k = v ⟨j * 256 + k.val, h⟩) :
    (runTiles sc vl 15).2.2 * Ideal.div 1 (runTiles sc vl 15).2.1
      = ∑ t : Fin 4096, v t * Ideal.div
          (Ideal.exp (s t - (Finset.univ : Finset (Fin 4096)).fold max ⊥ s))
          (∑ t' : Fin 4096, Ideal.exp (s t' - (Finset.univ : Finset (Fin 4096)).fold max ⊥ s)) := by
  obtain ⟨S, rfl⟩ := exists_real_fun s hs
  obtain ⟨V, rfl⟩ := exists_real_fun v hv
  have htr := tiles_tracks S V sc vl hsc hvl
  have hq := htr.quotient S V (tilesDen_tileOf S) (tilesNum_tileOf S V)
  obtain ⟨m, hm⟩ := htr
  have hl : (runTiles sc vl 15).2.1 = ((den S m : ℝ) : EReal) := by rw [hm, tilesDen_tileOf]
  have hne : den S m ≠ 0 := (den_pos S m).ne'
  have hdiv : (runTiles sc vl 15).2.2 * Ideal.div 1 (runTiles sc vl 15).2.1
      = Ideal.div (runTiles sc vl 15).2.2 (runTiles sc vl 15).2.1 := by
    rw [hl, Ideal.div_coe hne, Ideal.div_coe hne, one_mul]
  rw [hdiv, hq]
  exact Finset.sum_congr rfl fun t _ => mul_comm _ _

/-- exp (score − running maximum) / running denominator after the 16 tiles is the softmax weight. -/
theorem tiles_attn (s : Fin 4096 → EReal) (hs : ∀ t, ∃ r : ℝ, s t = (r : EReal))
    (sc vl : ℕ → Fin 256 → EReal)
    (hsc : ∀ (j : ℕ) (k : Fin 256) (h : j * 256 + k.val < 4096), sc j k = s ⟨j * 256 + k.val, h⟩)
    (t : Fin 4096) :
    Ideal.div (Ideal.exp (s t - (runTiles sc vl 15).1)) (runTiles sc vl 15).2.1
      = Ideal.div (Ideal.exp (s t - (Finset.univ : Finset (Fin 4096)).fold max ⊥ s))
          (∑ t' : Fin 4096, Ideal.exp (s t' - (Finset.univ : Finset (Fin 4096)).fold max ⊥ s)) := by
  obtain ⟨S, rfl⟩ := exists_real_fun s hs
  have hcongr : runTiles sc (fun _ _ => ((0 : ℝ) : EReal)) 15
      = runTiles (fun i k => ((tileOf S i k : ℝ) : EReal)) (fun _ _ => ((0 : ℝ) : EReal)) 15 :=
    runTiles_congr 15 (fun i hi => tile_coe S sc hsc i hi) (fun _ _ => rfl)
  have htr := runTiles_tracks (tileOf S) (fun _ _ => (0 : ℝ)) 15
  rw [← hcongr] at htr
  obtain ⟨m, hm⟩ := htr
  obtain ⟨h1, h2⟩ := runTiles_indep sc vl (fun _ _ => ((0 : ℝ) : EReal)) 15
  rw [h1, h2, hm]
  show Ideal.div (Ideal.exp (((S t : ℝ) : EReal) - (m : EReal))) ((tilesDen (tileOf S) 15 m : ℝ) : EReal) = _
  rw [tilesDen_tileOf, fold_max_coe _ Finset.univ_nonempty S, sum_exp_coe]
  exact weight_shift S t m _

/-! ### The scores are real -/

/-- On real arguments every score is real. -/
theorem logit_real (x : SX.Idx → EReal) (w : SW.Idx → EReal) (bias : SB.Idx → EReal) (u : SU.Idx → EReal)
    (hx : ∀ i, ∃ r : ℝ, x i = (r : EReal)) (hw : ∀ i, ∃ r : ℝ, w i = (r : EReal))
    (hb : ∀ i, ∃ r : ℝ, bias i = (r : EReal)) (hu : ∀ i, ∃ r : ℝ, u i = (r : EReal))
    (b : Fin 64) (t : Fin 4096) : ∃ r : ℝ, logit x w bias u b t = (r : EReal) := by
  obtain ⟨X, rfl⟩ := exists_real_fun x hx
  obtain ⟨W, rfl⟩ := exists_real_fun w hw
  obtain ⟨B, rfl⟩ := exists_real_fun bias hb
  obtain ⟨Uu, rfl⟩ := exists_real_fun u hu
  refine ⟨∑ k : Fin 64, Real.tanh ((∑ d : Fin 256, X (ValueIdx.ix3 b t d) * W (ValueIdx.ix2 d k)) + B (ValueIdx.ix1 k))
    * Uu (ValueIdx.ix2 k (0 : Fin 1)), ?_⟩
  unfold logit hidden
  simp only [← EReal.coe_mul, ← coe_sum, ← EReal.coe_add, Ideal.tanh_coe]

end AttnPool

end
-- ==== Proof.TileBridge.lean ====
/-
  The tile form of the results is the specification, when the inputs are finite.

  For a batch row b the row's 4096 scores are real numbers (sums of products of real numbers and hyperbolic tangents),
  so the online softmax over the sixteen tiles of 256 time steps computes the softmax: numerator · (1 / denominator) of
  the final state is the context entry, and exp (score − final maximum) / final denominator is the attention weight.
-/
import proofs.«158354_j72310069395789_2_alg».proof.Proof.TileArgs
import proofs.«158354_j72310069395789_2_alg».proof.Proof.TileMath

noncomputable section

open scoped BigOperators

namespace AttnPool

open Idealize.ShloMosaic Idealize.ShloMosaic.ValueIdx

variable (x : SX.Idx → EReal) (w : SW.Idx → EReal) (bias : SB.Idx → EReal) (u : SU.Idx → EReal)

/-- Tile j, entry k of row b's scores is the score at time step j·256 + k. -/
theorem scG_eq (b : Fin 64) (j : ℕ) (k : Fin 256) (h : j * 256 + k.val < 4096) :
    scG x w bias u b j k = logit x w bias u b ⟨j * 256 + k.val, h⟩ := by
  unfold scG
  exact dif_pos h

/-- Tile j, entry k of row b's feature d is the input at time step j·256 + k. -/
theorem vlG_eq (b : Fin 64) (d : Fin 256) (j : ℕ) (k : Fin 256) (h : j * 256 + k.val < 4096) :
    vlG x b d j k = x (ix3 b ⟨j * 256 + k.val, h⟩ d) := by
  unfold vlG
  exact dif_pos h

/-- Row b, feature d: numerator · (1 / denominator) after the sixteenth tile is the context entry. -/
theorem ctx_row (hx : ∀ i, ∃ r : ℝ, x i = (r : EReal)) (hw : ∀ i, ∃ r : ℝ, w i = (r : EReal))
    (hb : ∀ i, ∃ r : ℝ, bias i = (r : EReal)) (hu : ∀ i, ∃ r : ℝ, u i = (r : EReal)) (b : Fin 64) (d : Fin 256) :
    (runTiles (scG x w bias u b) (vlG x b d) 15).2.2 * Ideal.div 1 (runTiles (scG x w bias u b) (vlG x b d) 15).2.1
      = ctx x w bias u b d := by
  unfold ctx attn weight total rowMax
  exact tiles_ctx (fun t => logit x w bias u b t) (fun t => x (ix3 b t d))
    (fun t => logit_real x w bias u hx hw hb hu b t) (fun t => hx _)
    (scG x w bias u b) (vlG x b d) (scG_eq x w bias u b) (vlG_eq x b d)

/-- Row b, time step t: exp (score − final maximum) / final denominator is the attention weight. -/
theorem attn_row (hx : ∀ i, ∃ r : ℝ, x i = (r : EReal)) (hw : ∀ i, ∃ r : ℝ, w i = (r : EReal))
    (hb : ∀ i, ∃ r : ℝ, bias i = (r : EReal)) (hu : ∀ i, ∃ r : ℝ, u i = (r : EReal)) (b : Fin 64) (t : Fin 4096) :
    Ideal.div (Ideal.exp (logit x w bias u b t - (runTiles (scG x w bias u b) (vlG x b (0 : Fin 256)) 15).1))
        (runTiles (scG x w bias u b) (vlG x b (0 : Fin 256)) 15).2.1
      = attn x w bias u b t := by
  unfold attn weight total rowMax
  exact tiles_attn (fun t => logit x w bias u b t) (fun t => logit_real x w bias u hx hw hb hu b t)
    (scG x w bias u b) (vlG x b (0 : Fin 256)) (scG_eq x w bias u b) t

/-- The context in tile form is the specification's context. -/
theorem ctxTiles_eq (hx : ∀ i, ∃ r : ℝ, x i = (r : EReal)) (hw : ∀ i, ∃ r : ℝ, w i = (r : EReal))
    (hb : ∀ i, ∃ r : ℝ, bias i = (r : EReal)) (hu : ∀ i, ∃ r : ℝ, u i = (r : EReal)) :
    ctxTiles x w bias u = ctxArr x w bias u :=
  funext fun i => ctx_row x w bias u hx hw hb hu (i 0) (i 1)

/-- The attention weight in tile form is the specification's attention weight. -/
theorem attnTiles_eq (hx : ∀ i, ∃ r : ℝ, x i = (r : EReal)) (hw : ∀ i, ∃ r : ℝ, w i = (r : EReal))
    (hb : ∀ i, ∃ r : ℝ, bias i = (r : EReal)) (hu : ∀ i, ∃ r : ℝ, u i = (r : EReal)) (i : SA.Idx) :
    Ideal.div (Ideal.exp (logitArr x w bias u (ix2 (i 0) (i 1)) - maxTiles x w bias u (ix2 (i 0) (0 : Fin 1))))
        (sumTiles x w bias u (ix2 (i 0) (0 : Fin 1)))
      = attnArr x w bias u i :=
  attn_row x w bias u hx hw hb hu (i 0) (i 1)

end AttnPool

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.FiniteInputs.lean ====
/-
  The precondition, decoded: every entry of the four argument arrays is a real number.

  The precondition is the conjunction of four "all entries finite" tests; each test compares |entry| with +∞ entry by
  entry (ordered, less-than) and folds the comparisons by "and" from 1.  A conjunction that is 1 has both parts 1; a
  fold by "and" that is 1 met only 1s; and an extended real whose absolute value is below +∞ is a real number.
-/
import proofs.«158354_j72310069395789_2_alg».proof.Pre_finite_inputs
import proofs.«158354_j72310069395789_2_alg».proof.Proof.LibFiniteEntry
import Idealize.ShloMosaic.Lib.ReduceAll
import Idealize.ShloMosaic.Lib.ValueIdx
import Idealize.ShloMosaic.PureOps.Ideal

noncomputable section

namespace Cert.Pre_finite_inputs.Decode

open Cert.Pre_finite_inputs Idealize.ShloMosaic

/-- The rank-zero shape has one index. -/
instance subsingleton_scalar_idx : Subsingleton S_.Idx := ⟨fun a b => funext fun d => d.elim0⟩

/-- One "all entries finite" test that came out 1: every entry of the array is a real number. -/
theorem real_of_all {s : Shape} (x : s.Idx → EReal) (hb : S_.BroadcastsInDim s (![] : Fin 0 → Fin s.rank))
    {axes : List (Fin s.rank)} (hr : s.ReducesTo axes S_) (hu : 0 < S_.numel)
    (e : Host.reduce IntOp.andi
        (cmpf .olt (Host.absf (F := Ideal) (φ := .f32) x) (broadcastInDim s ![] hb (constant (F := Ideal) S_ .f32 0x7F800000#32)))
        (constantI S_ 1 1#1) hr hu ValueIdx.ix0 = 1#1) (i : s.Idx) :
    ∃ r : ℝ, x i = (r : EReal) :=
  FiniteEntry.real_of_abs_lt_inf (x i) (Host.reduce_andi_all _ _ hr hu ValueIdx.ix0 e i)

variable [Facts]
open Facts

/-- Under the precondition every entry of every argument array is a real number. -/
theorem real_of_pre (x : S64x4096x256.Idx → EReal) (w : S256x64.Idx → EReal) (bias : S64.Idx → EReal) (u : S64x1.Idx → EReal)
    (h : fn (F := Ideal) x w bias u = fun _ => 1#1) :
    (∀ i, ∃ r : ℝ, x i = (r : EReal)) ∧ (∀ i, ∃ r : ℝ, w i = (r : EReal)) ∧ (∀ i, ∃ r : ℝ, bias i = (r : EReal))
      ∧ (∀ i, ∃ r : ℝ, u i = (r : EReal)) := by
  have e := congrFun h ValueIdx.ix0
  dsimp only [fn, fn_part1] at e
  obtain ⟨e012, e3⟩ := IntOp.andi_eq_one.1 e
  obtain ⟨e01, e2⟩ := IntOp.andi_eq_one.1 e012
  obtain ⟨e0, e1⟩ := IntOp.andi_eq_one.1 e01
  exact ⟨real_of_all x _ _ _ e0, real_of_all w _ _ _ e1, real_of_all bias _ _ _ e2, real_of_all u _ _ _ e3⟩

end Cert.Pre_finite_inputs.Decode

end
-- ==== Proof.KernelFinal.lean ====
/-
  The kernel program's run, with its two results as the specification's arrays.

  After the run the four output arrays of the region are: the context in tile form, the score array, and the maximum and
  the denominator after the sixteenth tile (each block is what its grid point wrote back, and the blocks cover the arrays).
  The host operations after the region turn scores, maxima and denominators into exp (score − maximum) / denominator.
  When every input entry is a real number (the precondition) the tile forms are the specification: the context by the online
  softmax's quotient, the weights because exp (s − m) / ∑ exp (s' − m) does not depend on the real shift m.
-/
import proofs.«158354_j72310069395789_2_alg».proof.Defs
import proofs.«158354_j72310069395789_2_alg».proof.Proof.KernelState
import proofs.«158354_j72310069395789_2_alg».proof.Proof.KernelArrays
import proofs.«158354_j72310069395789_2_alg».proof.Proof.KernelTail
import proofs.«158354_j72310069395789_2_alg».proof.Proof.TileBridge
import proofs.«158354_j72310069395789_2_alg».proof.Proof.FiniteInputs
import proofs.«158354_j72310069395789_2_alg».proof.Proof.Gen.Pre_finite_inputs

set_option maxRecDepth 16384

noncomputable section

open Idealize.ShloMosaic Idealize.ShloMosaic.TcCoe Idealize.SL.Sem Idealize.ShloMosaic.ValueIdx

namespace Cert.KernelIdeal.Final

open Cert.KernelIdeal Cert.KernelIdeal.Gen AttnPool

variable (m : (ℓ : Loc nD τ sig) → Buf (Elt Ideal) ℓ) (ρ : Dev nD → PrngReg)

/-- The context array after the run, in tile form. -/
theorem context_final (c : Dev nD) : (dats m 0 c).arrAt 4 cfg0.N = ctxTiles (m ((c : Thread nD τ).loc main_arg0)) (m ((c : Thread nD τ).loc main_arg1)) (m ((c : Thread nD τ).loc main_arg2)) (m ((c : Thread nD τ).loc main_arg3)) :=
  Arrays.context_array m c _ fun t h1 p d hb => State.context_block m c t h1 p d hb

/-- The score array after the run. -/
theorem scores_final (c : Dev nD) : (dats m 0 c).arrAt 5 cfg0.N = logitArr (m ((c : Thread nD τ).loc main_arg0)) (m ((c : Thread nD τ).loc main_arg1)) (m ((c : Thread nD τ).loc main_arg2)) (m ((c : Thread nD τ).loc main_arg3)) :=
  Arrays.scores_array m c _ fun t p q hb ht => State.scores_block m c t p q hb ht

/-- The maxima array after the run. -/
theorem maxima_final (c : Dev nD) : (dats m 0 c).arrAt 6 cfg0.N = maxTiles (m ((c : Thread nD τ).loc main_arg0)) (m ((c : Thread nD τ).loc main_arg1)) (m ((c : Thread nD τ).loc main_arg2)) (m ((c : Thread nD τ).loc main_arg3)) :=
  Arrays.maxima_array m c _ fun t h1 p hb => State.maxima_block m c t h1 p hb

/-- The denominators array after the run. -/
theorem sums_final (c : Dev nD) : (dats m 0 c).arrAt 7 cfg0.N = sumTiles (m ((c : Thread nD τ).loc main_arg0)) (m ((c : Thread nD τ).loc main_arg1)) (m ((c : Thread nD τ).loc main_arg2)) (m ((c : Thread nD τ).loc main_arg3)) :=
  Arrays.sums_array m c _ fun t h1 p hb => State.sums_block m c t h1 p hb

/-- Under the precondition the kernel program ends with the specification's context and attention weights, its
    arguments unchanged. -/
theorem run_spec (hpre : Cert.Pre_KernelIdeal m) :
    θ_run defs (onTc (τ := τ) (main (F := Ideal))) ⟨m, fun _ => 0, ρ⟩ fun r => ∀ c : Dev nD,
      r.2.mem ((c : Thread nD τ).loc main_v2_0) = ctxArr (m ((c : Thread nD τ).loc main_arg0)) (m ((c : Thread nD τ).loc main_arg1)) (m ((c : Thread nD τ).loc main_arg2)) (m ((c : Thread nD τ).loc main_arg3))
      ∧ r.2.mem ((c : Thread nD τ).loc main_v8) = attnArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Tail.run_named m ρ)
  obtain ⟨hx, hw, hb, hu⟩ := Cert.Pre_finite_inputs.Decode.real_of_pre _ _ _ _ (hpre c)
  refine ⟨(h c).1.trans ((context_final m c).trans (ctxTiles_eq _ _ _ _ hx hw hb hu)), (h c).2.1.trans ?_, (h c).2.2⟩
  rw [scores_final, maxima_final, sums_final]
  funext i
  exact attnTiles_eq _ _ _ _ hx hw hb hu i

end Cert.KernelIdeal.Final

end
-- ==== Proof.lean ====
/-
  Additive pooling attention: a fused kernel against its plain reference, equal on the extended reals for finite inputs.

  Both programs compute, for 64 batch rows of 4096 time steps with 256 features: the score of a time step,
  ∑ k, tanh (x[b,t,:] · W[:,k] + bias[k]) · u[k]; the softmax of a row's scores over time; and the context vector, the
  softmax-weighted sum over time of the inputs.

  The reference does it with whole-array operations: the row maximum, exp (score − maximum), the sum, the quotient, then the
  weighted sum (Spec.lean states this index by index, RefStages.lean reads the reference's operations as that statement).

  The kernel visits a row's time steps in 16 tiles of 256 and never forms the weights: it carries a running maximum, a
  denominator and a numerator rescaled to the running maximum (KernelTile.lean: one tile of the body is one step of the
  online softmax; KernelPieces.lean, KernelPoint.lean: what each grid point leaves; KernelState.lean: by induction on the
  grid point the scratch holds the online softmax state of the rows it serves; KernelBlocks.lean: a point's input blocks are
  the rows' own entries). At a row's last tile it writes numerator · (1 / denominator), and the scores, the final maximum and
  the final denominator go to the host, which forms exp (score − maximum) / denominator (KernelArrays.lean,
  KernelTail.lean, KernelFinal.lean).

  The two agree because, for real scores, the rescaled sums at ANY real shift m satisfy exp (m − m') · F m = F m', so the
  quotient numerator / denominator and each weight exp (s − m) / ∑ exp (s' − m) are independent of the shift and equal
  their values at the true maximum (TileMath.lean, TileBridge.lean, over the online softmax library). Finiteness of
  the inputs is used exactly there: tanh of a real is a real, so every score is a real, the denominator is a positive real,
  and (∑ x · e) · (1 / L) = ∑ x · (e / L) is real arithmetic (FiniteInputs.lean decodes the precondition).

  The three frames are the generated ones (the reference's is its generated run with the results dropped); the
  idealization rewrote nothing, so its conjunct is trivial.
-/
import proofs.«158354_j72310069395789_2_alg».proof.Defs
import proofs.«158354_j72310069395789_2_alg».proof.Proof.Gen.Kernel
import proofs.«158354_j72310069395789_2_alg».proof.Proof.Gen.Kernel.Skeleton
import proofs.«158354_j72310069395789_2_alg».proof.Proof.Gen.Kernel.Launch
import proofs.«158354_j72310069395789_2_alg».proof.Proof.Gen.Kernel.Points
import proofs.«158354_j72310069395789_2_alg».proof.Proof.Gen.Kernel.Frame
import proofs.«158354_j72310069395789_2_alg».proof.Proof.Gen.KernelIdeal
import proofs.«158354_j72310069395789_2_alg».proof.Proof.Gen.KernelIdeal.Skeleton
import proofs.«158354_j72310069395789_2_alg».proof.Proof.Gen.KernelIdeal.Launch
import proofs.«158354_j72310069395789_2_alg».proof.Proof.Gen.KernelIdeal.Points
import proofs.«158354_j72310069395789_2_alg».proof.Proof.Gen.KernelIdeal.Frame
import proofs.«158354_j72310069395789_2_alg».proof.Proof.Gen.ReferenceIdeal
import proofs.«158354_j72310069395789_2_alg».proof.Proof.Gen.ReferenceIdeal.Run
import proofs.«158354_j72310069395789_2_alg».proof.Proof.Gen.Pre_finite_inputs
import proofs.«158354_j72310069395789_2_alg».proof.Proof.RefStages
import proofs.«158354_j72310069395789_2_alg».proof.Proof.KernelFinal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2)
    (Cert.ReferenceIdeal.RefRun.run_spec m ρ)

/-- The idealization rewrote no operation. -/
theorem preserves : Cert.preserves_Kernel_KernelIdeal := trivial

/-- On finite inputs both programs end with the specification's context vectors and attention weights of the argument
    arrays. -/
theorem algebraic : Cert.algebraic_KernelIdeal_ReferenceIdeal := by
  intro m ρ m' ρ' hpre hagree
  refine ⟨fun c => AttnPool.ctxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => AttnPool.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Final.run_spec m ρ hpre, ?_⟩
  refine (θ_run Cert.ReferenceIdeal.defs _ _).mono (fun _ h c => ?_) (Cert.ReferenceIdeal.RefRun.run_spec m' ρ')
  obtain ⟨a0, a1, a2, a3⟩ := hagree c
  refine ⟨(h c).1.trans ?_, (h c).2.1.trans ?_, (h c).2.2⟩
  · rw [a0, a1, a2, a3]
  · rw [a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
